-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S16x64x65536 : Shape := ⟨3, ![16, 64, 65536]⟩
abbrev S16x65536x64 : Shape := ⟨3, ![16, 65536, 64]⟩
abbrev S16x64x64 : Shape := ⟨3, ![16, 64, 64]⟩
abbrev S1x64x16384 : Shape := ⟨3, ![1, 64, 16384]⟩
abbrev S1x16384x64 : Shape := ⟨3, ![1, 16384, 64]⟩
abbrev S1x64x64 : Shape := ⟨3, ![1, 64, 64]⟩
abbrev S64x64 : Shape := ⟨2, ![64, 64]⟩
abbrev S64x16384 : Shape := ⟨2, ![64, 16384]⟩
abbrev S16384x64 : Shape := ⟨2, ![16384, 64]⟩
abbrev S64 : Shape := ⟨1, ![64]⟩
abbrev S64x1 : Shape := ⟨2, ![64, 1]⟩

abbrev nBuf : Space → Nat
  | .hbm => 6
  | .vmem => 13
  | .smem => 0
  | _ => 0

abbrev bufTy : (tb : Table) → Fin (tcTables nBuf tb) → BufTy
  | .hbm, ⟨0, _⟩ => ⟨S16x64x256x256, .f32⟩
  | .hbm, ⟨1, _⟩ => ⟨S16x64x65536, .f32⟩
  | .hbm, ⟨2, _⟩ => ⟨S16x65536x64, .f32⟩
  | .hbm, ⟨3, _⟩ => ⟨S16x64x64, .f32⟩
  | .hbm, ⟨4, _⟩ => ⟨S16x64x65536, .f32⟩
  | .hbm, ⟨5, _⟩ => ⟨S16x64x256x256, .f32⟩
  | .local _ .vmem, ⟨0, _⟩ => ⟨S1x64x16384, .f32⟩
  | .local _ .vmem, ⟨1, _⟩ => ⟨S1x64x16384, .f32⟩
  | .local _ .vmem, ⟨2, _⟩ => ⟨S1x16384x64, .f32⟩
  | .local _ .vmem, ⟨3, _⟩ => ⟨S1x16384x64, .f32⟩
  | .local _ .vmem, ⟨4, _⟩ => ⟨S1x64x64, .f32⟩
  | .local _ .vmem, ⟨5, _⟩ => ⟨S1x64x64, .f32⟩
  | .local _ .vmem, ⟨6, _⟩ => ⟨S64x64, .f32⟩
  | .local _ .vmem, ⟨7, _⟩ => ⟨S1x64x64, .f32⟩
  | .local _ .vmem, ⟨8, _⟩ => ⟨S1x64x64, .f32⟩
  | .local _ .vmem, ⟨9, _⟩ => ⟨S1x64x16384, .f32⟩
  | .local _ .vmem, ⟨10, _⟩ => ⟨S1x64x16384, .f32⟩
  | .local _ .vmem, ⟨11, _⟩ => ⟨S1x64x16384, .f32⟩
  | .local _ .vmem, ⟨12, _⟩ => ⟨S1x64x16384, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x64x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16x64x256x256_S16x64x65536 : S16x64x256x256.ShapeCasts S16x64x65536
  shapeCasts_S16x64x256x256_S16x65536x64 : S16x64x256x256.ShapeCasts S16x65536x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  inb_S1x16384x64_S1x16384x64_0_0_0 : ∀ a, (![0, 0, 0] : Fin 3 → Nat) a + S1x16384x64.size a ≤ S1x16384x64.size a
  h_S1x16384x64 : 0 < S1x16384x64.numel
  shapeCasts_S1x16384x64_S16384x64 : S1x16384x64.ShapeCasts S16384x64
  reduces_S64x64_S64 : S64x64.Reduces [1] S64
  shapeCasts_S64_S64x1 : S64.ShapeCasts S64x1
  broadcasts_S64x1_S64x64 : S64x1.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  bitsLt_bf16_f32 : FTy.bits .bf16 < FTy.bits .f32
  shapeCasts_S64x16384_S1x64x16384 : S64x16384.ShapeCasts S1x64x16384
  shapeCasts_S16x64x65536_S16x64x256x256 : S16x64x65536.ShapeCasts S16x64x256x256
  dot_S64x16384_S16384x64_S64x64_1_0_0_1_n_n_wf : DotDims.WF S64x16384 S16384x64 S64x64 [1] [0] [0] [1] [] []
  dot_S64x64_S64x16384_S64x16384_1_0_0_1_n_n_wf : DotDims.WF S64x64 S64x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S16x64x65536.size a
  hwx0_0 : ∀ i : grid0.Coords, EltTy.bits .f32 = 32 ∨ (Rect.block (s := S16x64x65536) S1x64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384x64.size a ≤ S16x65536x64.size a
  hwx0_1 : ∀ i : grid0.Coords, EltTy.bits .f32 = 32 ∨ (Rect.block (s := S16x65536x64) S1x16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S16x64x64.size a
  hwx0_2 : ∀ i : grid0.Coords, EltTy.bits .f32 = 32 ∨ (Rect.block (s := S16x64x64) S1x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64.size a ≤ S16x64x64.size a
  hwx1_0 : ∀ i : grid1.Coords, EltTy.bits .f32 = 32 ∨ (Rect.block (s := S16x64x64) S1x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x16384.size a ≤ S16x64x65536.size a
  hwx1_1 : ∀ i : grid1.Coords, EltTy.bits .f32 = 32 ∨ (Rect.block (s := S16x64x65536) S1x64x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x16384.size a ≤ S16x64x65536.size a
  hwx1_2 : ∀ i : grid1.Coords, EltTy.bits .f32 = 32 ∨ (Rect.block (s := S16x64x65536) S1x64x16384.size (cc1_transform_2 i) (hinb1_2 i)).WholeWords (EltTy.packing .f32)

variable [Facts₀]

def dot_S64x16384_S16384x64_S64x64_1_0_0_1_n_n : DotDims S64x16384 S16384x64 S64x64 where
  lhsContracting := [1]
  rhsContracting := [0]
  lhsNonContracting := [0]
  rhsNonContracting := [1]
  lhsBatch := []
  rhsBatch := []
  wf := dot_S64x16384_S16384x64_S64x64_1_0_0_1_n_n_wf
def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

abbrev win0_0 : Pipeline.Window sig grid0 :=
  Pipeline.Window.ofSpec (Memref.whole main_v0) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16384x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S1x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x64x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x64x256x256 : Shape := ⟨4, ![16, 64, 256, 256]⟩
abbrev S16x64x65536 : Shape := ⟨3, ![16, 64, 65536]⟩
abbrev S16x65536x64 : Shape := ⟨3, ![16, 65536, 64]⟩
abbrev S16x64x64 : Shape := ⟨3, ![16, 64, 64]⟩
abbrev S_ : Shape := ⟨0, ![]⟩
abbrev S16x64 : Shape := ⟨2, ![16, 64]⟩
abbrev S16x64x1 : Shape := ⟨3, ![16, 64, 1]⟩

abbrev nBuf : Space → Nat
  | .hbm => 21
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16x64x65536, .f32⟩
  | .hbm, ⟨2, _⟩ => ⟨S16x65536x64, .f32⟩
  | .hbm, ⟨3, _⟩ => ⟨S16x64x64, .f32⟩
  | .hbm, ⟨4, _⟩ => ⟨S_, .f32⟩
  | .hbm, ⟨5, _⟩ => ⟨S16x64, .f32⟩
  | .hbm, ⟨6, _⟩ => ⟨S_, .f32⟩
  | .hbm, ⟨7, _⟩ => ⟨S16x64, .f32⟩
  | .hbm, ⟨8, _⟩ => ⟨S16x64, .f32⟩
  | .hbm, ⟨9, _⟩ => ⟨S16x64x1, .f32⟩
  | .hbm, ⟨10, _⟩ => ⟨S16x64x64, .f32⟩
  | .hbm, ⟨11, _⟩ => ⟨S16x64x64, .f32⟩
  | .hbm, ⟨12, _⟩ => ⟨S16x64x64, .f32⟩
  | .hbm, ⟨13, _⟩ => ⟨S_, .f32⟩
  | .hbm, ⟨14, _⟩ => ⟨S16x64, .f32⟩
  | .hbm, ⟨15, _⟩ => ⟨S16x64x1, .f32⟩
  | .hbm, ⟨16, _⟩ => ⟨S16x64x64, .f32⟩
  | .hbm, ⟨17, _⟩ => ⟨S16x64x64, .f32⟩
  | .hbm, ⟨18, _⟩ => ⟨S16x64x65536, .f32⟩
  | .hbm, ⟨19, _⟩ => ⟨S16x64x256x256, .f32⟩
  | .hbm, ⟨20, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  shapeCasts_S16x64x256x256_S16x64x65536 : S16x64x256x256.ShapeCasts S16x64x65536
  shapeCasts_S16x64x256x256_S16x65536x64 : S16x64x256x256.ShapeCasts S16x65536x64
  reducesTo_S16x64x64_S16x64_d2 : S16x64x64.ReducesTo [2] S16x64
  h_S_ : 0 < S_.numel
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x64_0_1_2 : S16x64x1.BroadcastsInDim S16x64x64 (![0, 1, 2] : Fin 3 → Fin S16x64x64.rank)
  shapeCasts_S16x64x65536_S16x64x256x256 : S16x64x65536.ShapeCasts S16x64x256x256
  dot_S16x64x65536_S16x65536x64_S16x64x64_2_1_1_2_0_0_wf : DotDims.WF S16x64x65536 S16x65536x64 S16x64x64 [2] [1] [1] [2] [0] [0]
  dot_S16x64x64_S16x64x65536_S16x64x65536_2_1_1_2_0_0_wf : DotDims.WF S16x64x64 S16x64x65536 S16x64x65536 [2] [1] [1] [2] [0] [0]

variable [Facts₀]

def dot_S16x64x65536_S16x65536x64_S16x64x64_2_1_1_2_0_0 : DotDims S16x64x65536 S16x65536x64 S16x64x64 where
  lhsContracting := [2]
  rhsContracting := [1]
  lhsNonContracting := [1]
  rhsNonContracting := [2]
  lhsBatch := [0]
  rhsBatch := [0]
  wf := dot_S16x64x65536_S16x65536x64_S16x64x64_2_1_1_2_0_0_wf
def dot_S16x64x64_S16x64x65536_S16x64x65536_2_1_1_2_0_0 : DotDims S16x64x64 S16x64x65536 S16x64x65536 where
  lhsContracting := [2]
  rhsContracting := [1]
  lhsNonContracting := [1]
  rhsNonContracting := [2]
  lhsBatch := [0]
  rhsBatch := [0]
  wf := dot_S16x64x64_S16x64x65536_S16x64x65536_2_1_1_2_0_0_wf

class Facts : Prop extends Facts₀ where

variable [Facts]
-- ==== Proof.K.Body0.lean ====
/-
  The logits kernel's body, run once per case of its two conditionals.

  At a grid point (b, k) the body first clears the 64 x 64 accumulator when k = 0, then adds to it the product of the
  point's block of Q (64 x 16384) with its block of K (16384 x 64), and when k = 3 turns the accumulator's rows into
  softmax weights and stores them into the output block. Three cases occur on the grid: k = 0 (clear, add), k = 1, 2
  (add), k = 3 (add, normalise). In each the buffers the body does not store into come back as they were, the
  accumulator comes back at the sum, and in the last case the output block at the weights.
-/
import proofs.«138732_j50362786513234_2_alg».proof.Proof.Gen.Kernel.Launch
import proofs.«138732_j50362786513234_2_alg».proof.Proof.Gen.Kernel.Skeleton
import proofs.«138732_j50362786513234_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test: the second grid coordinate is 0. -/
abbrev condFirst (i : grid0.Coords) : Prop :=
  (Scalar.cmpi .ne (Scalar.extui (Scalar.cmpi .eq (BitVec.ofNat 32 (i 1).val) 0#32)) 0#32) = 1#1
/-- The second conditional's test: the second grid coordinate is 3. -/
abbrev condLast (i : grid0.Coords) : Prop := k0_cond2 i = 1#1

theorem zero2 : (![0, 0] : Fin 2 → ℕ) = fun _ => 0 := by funext a; fin_cases a <;> rfl
theorem zero3 : (![0, 0, 0] : Fin 3 → ℕ) = fun _ => 0 := by funext a; fin_cases a <;> rfl

/-- The accumulator after one more block: the sum so far plus the block product. -/
abbrev accStep (x0 : Vec F S1x64x16384 .f32) (x1 : Vec F S1x16384x64 .f32) (xs : Vec F S64x64 .f32) : Vec F S64x64 .f32 :=
  k0_pay2 x0 x1 xs
/-- The cleared accumulator. -/
abbrev accZero : Vec F S64x64 .f32 := k0_pay1 (F := F)
/-- The weights stored from an accumulator. -/
abbrev weightsOf (xs : Vec F S64x64 .f32) : Vec F S1x64x64 .f32 := k0_pay3 xs

/-- A load of a whole block reads the block. -/
theorem ld_whole_q (x0 : Vec F S1x64x16384 .f32) :
    View.ld x0 (Rect.unit (s := S1x64x16384) ![0, 0, 0] S1x64x16384.size inb_S1x64x16384_S1x64x16384_0_0_0) = x0 :=
  View.ld_unit_zero zero3 _ x0
theorem ld_whole_k (x1 : Vec F S1x16384x64 .f32) :
    View.ld x1 (Rect.unit (s := S1x16384x64) ![0, 0, 0] S1x16384x64.size inb_S1x16384x64_S1x16384x64_0_0_0) = x1 :=
  View.ld_unit_zero zero3 _ x1
theorem ld_whole_acc (xs : Vec F S64x64 .f32) :
    View.ld xs (Rect.unit (s := S64x64) ![0, 0] S64x64.size inb_S64x64_S64x64_0_0) = xs :=
  View.ld_unit_zero zero2 _ xs
theorem ld_whole_out (xo : Vec F S1x64x64 .f32) :
    View.ld xo (Rect.unit (s := S1x64x64) ![0, 0, 0] S1x64x64.size inb_S1x64x64_S1x64x64_0_0_0) = xo :=
  View.ld_unit_zero zero3 _ xo

/-- What one whole-buffer store leaves reads back as its payload. -/
theorem read_store2 {M : Memref sig .tc .vmem S64x64 .f32} (f : M.view.ty.Contents (Elt F)) (w : Vec F S64x64 .f32)
    (L : List (View.Piece (Elt F) S64x64 .f32)) :
    M.view.read (Elt F) (M.view.writes (Elt F) f (⟨Rect.unit (s := S64x64) ![0, 0] S64x64.size inb_S64x64_S64x64_0_0, w⟩ :: L)) = w := by
  rw [View.read_writes_eq_canon _ _ _ (fun y => ⟨_, List.mem_cons_self, View.mem_set_unit_zero zero2 inb_S64x64_S64x64_0_0 y⟩),
    View.canon_cons_unit_zero zero2]

theorem read_store3 {M : Memref sig .tc .vmem S1x64x64 .f32} (f : M.view.ty.Contents (Elt F)) (w : Vec F S1x64x64 .f32)
    (L : List (View.Piece (Elt F) S1x64x64 .f32)) :
    M.view.read (Elt F) (M.view.writes (Elt F) f (⟨Rect.unit (s := S1x64x64) ![0, 0, 0] S1x64x64.size inb_S1x64x64_S1x64x64_0_0_0, w⟩ :: L)) = w := by
  rw [View.read_writes_eq_canon _ _ _ (fun y => ⟨_, List.mem_cons_self, View.mem_set_unit_zero zero3 inb_S1x64x64_S1x64x64_0_0_0 y⟩),
    View.canon_cons_unit_zero zero3]

set_option maxHeartbeats 1000000 in
/-- k = 1, 2: the accumulator gains the block product; nothing else changes. -/
theorem runMid (c : Dev nD) (i : grid0.Coords) (arg2 : Memref sig .tc .vmem S1x64x16384 .f32) (harg2 : arg2.IsWhole) (arg3 : Memref sig .tc .vmem S1x16384x64 .f32) (harg3 : arg3.IsWhole) (arg4 : Memref sig .tc .vmem S1x64x64 .f32) (harg4 : arg4.IsWhole) (arg5 : Memref sig .tc .vmem S64x64 .f32) (harg5 : arg5.IsWhole)
    (hc0 : ¬condFirst i) (hc1 : ¬condLast i)
    (x0 : Vec F S1x64x16384 .f32) (x1 : Vec F S1x16384x64 .f32) (xi : Vec F S1x64x64 .f32) (xs : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (accStep x0 x1 xs)) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%fi, %hfi, Hi⟩, ⟨%fs, %hfs, HS⟩, Hk⟩
  obtain rfl := harg2.eq_unread hf0; obtain rfl := harg3.eq_unread hf1; obtain rfl := harg4.eq_unread hfi; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [Hi]
  · iexists _; isplitr; · ipureintro; exact hfi
    iexact Hi
  iexists _; isplitr
  swap; · iexact HS
  ipureintro
  rw [read_store2]
  simp only [View.readAt_eq_ld, hf0, hf1, hfs]
  rw [ld_whole_q, ld_whole_k, ld_whole_acc]

set_option maxHeartbeats 1000000 in
/-- k = 0: the accumulator, whatever it held, is cleared and gains the block product; nothing else changes. -/
theorem runFirst (c : Dev nD) (i : grid0.Coords) (arg2 : Memref sig .tc .vmem S1x64x16384 .f32) (harg2 : arg2.IsWhole) (arg3 : Memref sig .tc .vmem S1x16384x64 .f32) (harg3 : arg3.IsWhole) (arg4 : Memref sig .tc .vmem S1x64x64 .f32) (harg4 : arg4.IsWhole) (arg5 : Memref sig .tc .vmem S64x64 .f32) (harg5 : arg5.IsWhole)
    (hc0 : condFirst i) (hc1 : ¬condLast i)
    (x0 : Vec F S1x64x16384 .f32) (x1 : Vec F S1x16384x64 .f32) (xi : Vec F S1x64x64 .f32) (xs : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (accStep x0 x1 accZero)) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%fi, %hfi, Hi⟩, ⟨%fs, %hfs, HS⟩, Hk⟩
  obtain rfl := harg2.eq_unread hf0; obtain rfl := harg3.eq_unread hf1; obtain rfl := harg4.eq_unread hfi; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [Hi]
  · iexists _; isplitr; · ipureintro; exact hfi
    iexact Hi
  iexists _; isplitr
  swap; · iexact HS
  ipureintro
  rw [read_store2]
  sl_unfold_run_names
  rw [View.readCov_unit_zero _ zero2]
  simp only [View.readAt_eq_ld, hf0, hf1]
  rw [ld_whole_q, ld_whole_k]

set_option maxHeartbeats 1000000 in
/-- k = 3: the accumulator gains the block product and the output block, whatever it held, receives the weights. -/
theorem runLast (c : Dev nD) (i : grid0.Coords) (arg2 : Memref sig .tc .vmem S1x64x16384 .f32) (harg2 : arg2.IsWhole) (arg3 : Memref sig .tc .vmem S1x16384x64 .f32) (harg3 : arg3.IsWhole) (arg4 : Memref sig .tc .vmem S1x64x64 .f32) (harg4 : arg4.IsWhole) (arg5 : Memref sig .tc .vmem S64x64 .f32) (harg5 : arg5.IsWhole)
    (hc0 : ¬condFirst i) (hc1 : condLast i)
    (x0 : Vec F S1x64x16384 .f32) (x1 : Vec F S1x16384x64 .f32) (xi : Vec F S1x64x64 .f32) (xs : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (weightsOf (accStep x0 x1 xs)) ∗ owns (c : Thread nD τ) arg5 fullShare (accStep x0 x1 xs)) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%fi, %hfi, Hi⟩, ⟨%fs, %hfs, HS⟩, Hk⟩
  obtain rfl := harg2.eq_unread hf0; obtain rfl := harg3.eq_unread hf1; obtain rfl := harg4.eq_unread hfi; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  have hacc : k0_pay2
      (View.readAt (Elt F) arg2.view (Rect.unit (s := S1x64x16384) ![0, 0, 0] S1x64x16384.size inb_S1x64x16384_S1x64x16384_0_0_0).toLoadRect (harg2.unread x0))
      (View.readAt (Elt F) arg3.view (Rect.unit (s := S1x16384x64) ![0, 0, 0] S1x16384x64.size inb_S1x16384x64_S1x16384x64_0_0_0).toLoadRect (harg3.unread x1))
      (View.readAt (Elt F) arg5.view (Rect.unit (s := S64x64) ![0, 0] S64x64.size inb_S64x64_S64x64_0_0).toLoadRect (harg5.unread xs))
      = accStep x0 x1 xs := by
    simp only [View.readAt_eq_ld, hf0, hf1, hfs]
    rw [ld_whole_q, ld_whole_k, ld_whole_acc]
  isplitl [Hi]
  · iexists _; isplitr
    swap; · iexact Hi
    ipureintro
    rw [read_store3]
    sl_unfold_run_names
    rw [View.readCov_unit_zero _ zero2, hacc]
  iexists _; isplitr
  swap; · iexact HS
  ipureintro
  sl_unfold_run_names
  rw [read_store2]
  exact hacc

end Cert.Kernel.Hand

end
-- ==== Proof.K.Data.lean ====
/-
  What the two kernel regions hold, point by point, over the contents V the program's buffers have when a region is
  entered.

  Region 0 (the logits): grid (b, k) with 16 x 4 points in row-major order, point t = 4 b + k. Its inputs are the
  block (b, :, 16384 k ...) of Q and the block (b, 16384 k ..., :) of K; its 64 x 64 accumulator is cleared at k = 0
  and gains one block product per point, so after point t it holds the sum of the products of the points 4 b, ..., t
  of the same batch; at k = 3 the output block b receives the softmax weights of the accumulator's rows.
  Region 1 (the mixing): same grid; at point t the output block is the weights of batch b applied to the block
  (b, :, 16384 k ...) of Q, that block added back.
-/
import proofs.«138732_j50362786513234_2_alg».proof.Proof.Gen.Kernel.Launch
import proofs.«138732_j50362786513234_2_alg».proof.Proof.Gen.Kernel.Skeleton
import proofs.«138732_j50362786513234_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when a region is entered: a parameter, instantiated per region by the run
variable (V : (c : Dev nD) → (b : Ref sig .tc) → Buf (Elt F) ((c : Thread nD τ).loc b))

/-! ## Region 0 -/

/-- Window w's block at point t, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point n: the cleared accumulator (at the first point of a batch) or what the point before
    left, plus the point's block product. -/
def accAt (c : Dev nD) : (n : ℕ) → n < cfg0.N → Vec F S64x64 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩)
      (if (n + 1) % 4 = 0 then k0_pay1 (F := F) else accAt c n (Nat.lt_of_succ_lt h))

theorem accAt_zero (c : Dev nD) (h : 0 < cfg0.N) :
    accAt V c 0 h = k0_pay2 (iblk0 V c 0 ⟨0, h⟩) (iblk0 V c 1 ⟨0, h⟩) (k0_pay1 (F := F)) := rfl

theorem accAt_succ (c : Dev nD) (n : ℕ) (h : n + 1 < cfg0.N) :
    accAt V c (n + 1) h = k0_pay2 (iblk0 V c 0 ⟨n + 1, h⟩) (iblk0 V c 1 ⟨n + 1, h⟩)
      (if (n + 1) % 4 = 0 then k0_pay1 (F := F) else accAt V c n (Nat.lt_of_succ_lt h)) := rfl

/-- At the first point of a batch the accumulator is the point's product alone. -/
theorem accAt_first (c : Dev nD) (t : Fin cfg0.N) (h : t.val % 4 = 0) :
    accAt V c t.val t.isLt = k0_pay2 (iblk0 V c 0 t) (iblk0 V c 1 t) (k0_pay1 (F := F)) := by
  obtain ⟨n, hn⟩ := t
  cases n with
  | zero => rfl
  | succ n => exact (accAt_succ V c n hn).trans (by rw [if_pos h])

/-- At a later point of a batch it is what the point before left plus the point's product. -/
theorem accAt_next (c : Dev nD) (t : Fin cfg0.N) (h : t.val % 4 ≠ 0) :
    accAt V c t.val t.isLt = k0_pay2 (iblk0 V c 0 t) (iblk0 V c 1 t)
      (accAt V c (t.val - 1) (Nat.lt_of_le_of_lt (Nat.sub_le _ _) t.isLt)) := by
  obtain ⟨n, hn⟩ := t
  cases n with
  | zero => exact absurd (Nat.zero_mod _) h
  | succ n => exact (accAt_succ V c n hn).trans (by rw [if_neg h]; rfl)

/-- The accumulator's buffer, as the kernel is handed it. -/
abbrev accM : Memref sig .tc .vmem S64x64 .f32 := Memref.whole cc0_scratch0

/-- The scoped buffers region 0 neither stages nor uses: region 1's staging buffers, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scoped buffers region 0 does not stage: the accumulator at some contents, and the others. -/
theorem scopedRest0_acc (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ others0 c) := by
  rw [scopedRest0_eq]; unfold others0; simp only [accM, owns_whole]; rfl

/-- The region's invariant before position n: before the first point the scoped rest as the launch hands it (the
    accumulator at anything); afterwards the accumulator at what the point before left, beside the others. -/
def Phi0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accM fullShare (accAt V c n hn) ∗ others0 c)

theorem Phi0_zero (c : Dev nD) (n : ℕ) (h : n ≤ cfg0.N) (hz : n = 0) :
    Phi0 V c n h = Pipeline.scopedRest (Ix := Unit) (Name := ℕ) (U := UR sig nD τ) (Lvl := ℕ) (Val := Elt F) spec0 c := by
  subst hz; rfl

theorem Phi0_succ (c : Dev nD) (n : ℕ) (hn : n < cfg0.N) :
    Phi0 V c (n + 1) hn = iprop(owns (c : Thread nD τ) accM fullShare (accAt V c n hn) ∗ others0 c) := rfl

theorem Phi0_pos (c : Dev nD) (n : ℕ) (h : n ≤ cfg0.N) (hz : n ≠ 0) :
    Phi0 V c n h = iprop(owns (c : Thread nD τ) accM fullShare (accAt V c (n - 1) (by omega)) ∗ others0 c) := by
  cases n with
  | zero => exact absurd rfl hz
  | succ n => rfl

/-- Region 0's proof data on core c: the arrays as the region finds them; after the body at point t each input's
    buffer at its block and the output's at the weights of the accumulator (read only at the points k = 3, where the
    body stores them); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt V c t.val t.isLt) := by dsimp only [dat0]

/-! ## Region 1 -/

/-- Window w's block at point t, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data on core c: the arrays as the region finds them; after the body at point t each input's
    buffer at its block and the output's at the weights applied to the block of Q, the block added back; the
    invariant the scoped buffers it does not stage; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.scopedRest (Ix := Unit) (Name := ℕ) (U := UR sig nD τ) (Lvl := ℕ) (Val := Elt F) spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

end Cert.Kernel.Hand

end
-- ==== Proof.K.Obl0.lean ====
/-
  Region 0's body obligation: at every grid point, from the region's invariant and the three windows' current buffers
  at what they then hold, the logits kernel's body runs to the invariant at the next point and the buffers at what the
  proof data say it leaves.

  The point t = 4 b + k is in one of three cases by k = t mod 4. The two inputs' buffers hold their blocks at every
  point. The output's buffer is stored into only at k = 3, which is also the only kind of point that writes it back;
  elsewhere the body hands it back as found. The accumulator is among the scoped buffers the region does not stage:
  the invariant hands it over at what the point before left (at anything before the first point) and takes it back at
  this point's sum.
-/
import proofs.«138732_j50362786513234_2_alg».proof.Proof.K.Body0
import proofs.«138732_j50362786513234_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two tests over the grid, and where the output window is idle -/

theorem hcondFirst : ∀ t : Fin cfg0.N, condFirst (grid0.coords t) ↔ t.val % 4 = 0 :=
  (by decide +kernel : ∀ t : Fin grid0.N, condFirst (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)

theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
theorem live0_2 : ∀ t : Fin cfg0.N, condLast (grid0.coords t) → cfg0.idle 2 (grid0.coords t) = false := by decide +kernel

/-! ## What the inputs' buffers hold when the body runs -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem Phi_castSucc0 (c : Dev nD) (t : Fin cfg0.N) :
    (dat0 V c).Φ t.castSucc = Phi0 V c t.val (Nat.le_of_lt t.isLt) := by
  dsimp only [dat0]; simp only [Fin.coe_castSucc]

/-- Whatever the position, the invariant holds the accumulator at some contents beside the others. -/
theorem Phi0_acc (c : Dev nD) (n : ℕ) (h : n ≤ cfg0.N) :
    Phi0 V c n h ⊢ iprop((∃ d, owns (c : Thread nD τ) accM fullShare d) ∗ others0 c) := by
  by_cases hz : n = 0
  · rw [Phi0_zero V c n h hz, scopedRest0_acc]
  · rw [Phi0_pos V c n h hz]
    iintro ⟨HS, Ho⟩
    isplitl [HS]; · iexists _; iexact HS
    iexact Ho

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [Phi_castSucc0]
  have hN : t.val < 64 := lt_of_lt_of_eq t.isLt (show cfg0.N = 64 from N_0)
  by_cases h3 : t.val % 4 = 3
  · -- the last chunk of a batch: add, then store the weights
    have hcl : condLast (grid0.coords t) := (hcondLast t).mpr h3
    have hcf : ¬condFirst (grid0.coords t) := fun h => by have := (hcondFirst t).mp h; omega
    have hz : t.val ≠ 0 := by omega
    rw [show (dat0 V c).leavesExact 2 t = owns (c : Thread nD τ) (st0_2 t) fullShare ((dat0 V c).after 2 t) from by
      unfold Dat.leavesExact; rw [live0_2 t hcl], after0_2]
    rw [accAt_next V c t (by omega), Phi0_pos V c _ _ hz]
    iintro ⟨⟨HS, Hoth⟩, Ho, ⟨%d0, H0⟩, ⟨%d1, H1⟩, ⟨%d2, H2⟩⟩
    iapply (runLast c (grid0.coords t) _ _ _ _ _ _ _ _ hcf hcl (iblk0 V c 0 t) (iblk0 V c 1 t) _ _ Set.univ _)
    isplitl [H0]; · iexact H0
    isplitl [H1]; · iexact H1
    isplitl [H2]; · iexact H2
    isplitl [HS]; · iexact HS
    iintro ⟨H0, H1, H2, HS⟩
    isplitl [HS Hoth]
    · isplitl [HS]; · iexact HS
      iexact Hoth
    isplitl [Ho]; · iexact Ho
    isplitl [H0]; · iexact H0
    isplitl [H1]; · iexact H1
    iexact H2
  · have hcl : ¬condLast (grid0.coords t) := fun h => h3 ((hcondLast t).mp h)
    rw [Dat.leavesExact_idle (dat0 V c) 2 t (idle0_2 t hcl) (noFlush0_2 t hcl)]
    by_cases h0 : t.val % 4 = 0
    · -- the first chunk of a batch: clear, then add
      have hcf : condFirst (grid0.coords t) := (hcondFirst t).mpr h0
      rw [accAt_first V c t h0]
      iintro ⟨HΦ, Ho, ⟨%d0, H0⟩, ⟨%d1, H1⟩, ⟨%d2, H2⟩⟩
      ihave HΦ' := (Phi0_acc V c t.val (Nat.le_of_lt t.isLt)) $$ HΦ
      icases HΦ' with ⟨⟨%xs, HS⟩, Hoth⟩
      iapply (runFirst c (grid0.coords t) _ _ _ _ _ _ _ _ hcf hcl (iblk0 V c 0 t) (iblk0 V c 1 t) _ xs Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexists _; iexact H2
    · -- a middle chunk: add
      have hcf : ¬condFirst (grid0.coords t) := fun h => h0 ((hcondFirst t).mp h)
      have hz : t.val ≠ 0 := by omega
      rw [accAt_next V c t h0, Phi0_pos V c _ _ hz]
      iintro ⟨⟨HS, Hoth⟩, Ho, ⟨%d0, H0⟩, ⟨%d1, H1⟩, ⟨%d2, H2⟩⟩
      iapply (runMid c (grid0.coords t) _ _ _ _ _ _ _ _ hcf hcl (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexists _; iexact H2

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = Phi0 V c 0 (Nat.zero_le _) from rfl, Phi0_zero V c 0 _ rfl]

/-- After the last point the invariant gives the scoped rest back: the accumulator's contents are forgotten. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = Phi0 V c (Fin.last cfg0.N).val (Nat.le_of_lt_succ (Fin.last cfg0.N).isLt) from rfl, scopedRest0_acc]
  exact Phi0_acc V c _ _

end Cert.Kernel.Hand

end
-- ==== Proof.K.Body1.lean ====
/-
  The mixing kernel's body: it loads the 64 x 64 weights and the 64 x 16384 block of Q, and stores into the output
  block the weights applied to the block, the block added back. One case, no conditional: the inputs' buffers come
  back as they were and the output's buffer, whatever it held, at that value.
-/
import proofs.«138732_j50362786513234_2_alg».proof.Proof.Gen.Kernel.Launch
import proofs.«138732_j50362786513234_2_alg».proof.Proof.Gen.Kernel.Skeleton
import proofs.«138732_j50362786513234_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero3' : (![0, 0, 0] : Fin 3 → ℕ) = fun _ => 0 := by funext a; fin_cases a <;> rfl

set_option maxHeartbeats 1000000 in
theorem runMix (c : Dev nD) (i : grid1.Coords) (arg2 : Memref sig .tc .vmem S1x64x64 .f32) (harg2 : arg2.IsWhole) (arg3 : Memref sig .tc .vmem S1x64x16384 .f32) (harg3 : arg3.IsWhole) (arg4 : Memref sig .tc .vmem S1x64x16384 .f32) (harg4 : arg4.IsWhole)
    (x0 : Vec F S1x64x64 .f32) (x1 : Vec F S1x64x16384 .f32) (xo : Vec F S1x64x16384 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (k1_pay1 x0 x1)) -∗ K ⟨⟩))
      ⊢ wp frame (wpE (defs₀ (F := F)) Variants.none c none) E (cc1__output_kernel i arg2 harg2 arg3 harg3 arg4 harg4) K := by
  simp only [cc1__output_kernel_eq_skeleton]; unfold cc1__output_kernel_skel
  unfold owns
  iintro ⟨⟨%f0, %hf0, H0⟩, ⟨%f1, %hf1, H1⟩, ⟨%fo, %hfo, Ho⟩, Hk⟩
  obtain rfl := harg2.eq_unread hf0; obtain rfl := harg3.eq_unread hf1; obtain rfl := harg4.eq_unread hfo
  sl_exec
  sl_step
  iapply Hk
  isplitl [H0]
  · iexists _; isplitr; · ipureintro; exact hf0
    iexact H0
  isplitl [H1]
  · iexists _; isplitr; · ipureintro; exact hf1
    iexact H1
  iexists _; isplitr
  swap; · iexact Ho
  ipureintro
  rw [View.read_writes_eq_canon _ _ _ (fun y => ⟨_, List.mem_cons_self, View.mem_set_unit_zero zero3' inb_S1x64x16384_S1x64x16384_0_0_0 y⟩),
    View.canon_cons_unit_zero zero3']
  simp only [View.readAt_eq_ld, hf0, hf1]
  rw [show View.ld x0 (Rect.unit (s := S1x64x64) ![0, 0, 0] S1x64x64.size inb_S1x64x64_S1x64x64_0_0_0) = x0 from View.ld_unit_zero zero3' _ x0,
    show View.ld x1 (Rect.unit (s := S1x64x16384) ![0, 0, 0] S1x64x16384.size inb_S1x64x16384_S1x64x16384_0_0_0) = x1 from View.ld_unit_zero zero3' _ x1]

end Cert.Kernel.Hand

end
-- ==== Proof.K.Obl1.lean ====
/-
  Region 1's body obligation: at every grid point the two inputs' buffers hold their blocks (the weights' block is
  fetched only at the first point of a batch and stays in place for the other three, its block index unchanged), the
  body stores the output block, and the scoped buffers the region does not stage pass through untouched.
-/
import proofs.«138732_j50362786513234_2_alg».proof.Proof.K.Body1
import proofs.«138732_j50362786513234_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (runMix c (grid1.coords t) _ _ _ _ _ _ (iblk1 V c 0 t) (iblk1 V c 1 t) _ Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the program: two reshapes of the argument on the host, the logits region, the mixing region, one
  reshape of the result on the host. The buffer contents at each boundary are a fold from the launch memory: a host
  stretch applies its operations; a region leaves its windows' arrays at what its write-backs leave and every other
  buffer as it found it. Each region is entered from the thread holding every unscoped buffer at the boundary's
  contents (beside the generator register and the core owing nothing), takes its arrays out of them, and puts them back
  at the exit contents. Every weakly fair execution terminates with every unscoped buffer at the last contents.
-/
import proofs.«138732_j50362786513234_2_alg».proof.Proof.K.Obl0
import proofs.«138732_j50362786513234_2_alg».proof.Proof.K.Obl1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 (c : Dev nD) : Valuation τ sig (Elt F) := fun b => m (c, b)
/-- After the two reshapes (region 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit (region 1's entry). -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape (the end). -/
abbrev W4 (c : Dev nD) : Valuation τ sig (Elt F) := StableHlo.after hostOps2 (W3 m c)

/-- The argument ends as launched: no host operation writes it and neither region has it among its arrays. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-! ## The proof data family and the thread state -/

/-- No pipeline has a prefetched table. -/
abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem noFresh0 : (hostOps0 : List (HloOp τ sig (Elt F))).Forall fun op => op.fresh = ∅ := by
  simp only [List.Forall]; repeat' constructor
theorem noFresh2 : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at W1, left at W2. -/
def reg0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := BI.emp
  Y _ := BI.emp
  Z c := iprop(Pipeline.unscopedRest (Ix := Unit) (Name := ℕ) (U := UR sig nD τ) (Lvl := ℕ) spec0 c (V1 m c) ∗ ∃ r, prngReg c r)
  hentry c := by
    rw [Pipeline.ownSems0_none]
    have hsplit := Pipeline.arrays_of_unscopedBufs (p := 0) (pcfgs (F := F)) noTables (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    iintro ⟨-, -, Hr⟩
    iapply (show _ ⊢ (pdats m 0 c).Φ 0 from hin0 (V1 m) c)
    iexact Hr
  hout c := by
    rw [Pipeline.ownSems0_none]
    iintro HΦ
    isplitr; · iempintro
    isplitr; · iempintro
    iapply (show (pdats m 0 c).Φ (Fin.last _) ⊢ _ from hout0 (V1 m) c)
    iexact HΦ
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 1 over the thread state: entered from every unscoped buffer at W2, left at W3. -/
def reg1 : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X _ := BI.emp
  Y _ := BI.emp
  Z c := iprop(Pipeline.unscopedRest (Ix := Unit) (Name := ℕ) (U := UR sig nD τ) (Lvl := ℕ) spec1 c (V2 m c) ∗ ∃ r, prngReg c r)
  hentry c := by
    rw [Pipeline.ownSems0_none]
    have hsplit := Pipeline.arrays_of_unscopedBufs (p := 1) (pcfgs (F := F)) noTables (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The program as segments, and the launch -/

abbrev segs : List (Pipeline.Seg (pcfgs (F := F)) noTables (pdats m) () defs₀ 𝒱₀ L lv) :=
  [ .host (hseg hostOps0 hostOps0_sub noFresh0 (W0 m)),
    .region (reg0 m),
    .region (reg1 m),
    .host (hseg hostOps2 hostOps2_sub noFresh2 (W3 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) noTables (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      show iprop(StableHlo.held (c : Thread nD τ) (Pipeline.ucRefs τ sig) (W4 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W4_main_arg0 m c)) (run_all m ρ)

end Cert.Kernel.Hand

end
-- ==== Proof.KI.Body0.lean ====
/-
  The logits kernel's body, run once per case of its two conditionals.

  At a grid point (b, k) the body first clears the 64 x 64 accumulator when k = 0, then adds to it the product of the
  point's block of Q (64 x 16384) with its block of K (16384 x 64), and when k = 3 turns the accumulator's rows into
  softmax weights and stores them into the output block. Three cases occur on the grid: k = 0 (clear, add), k = 1, 2
  (add), k = 3 (add, normalise). In each the buffers the body does not store into come back as they were, the
  accumulator comes back at the sum, and in the last case the output block at the weights.
-/
import proofs.«138732_j50362786513234_2_alg».proof.Proof.Gen.KernelIdeal.Launch
import proofs.«138732_j50362786513234_2_alg».proof.Proof.Gen.KernelIdeal.Skeleton
import proofs.«138732_j50362786513234_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test: the second grid coordinate is 0. -/
abbrev condFirst (i : grid0.Coords) : Prop :=
  (Scalar.cmpi .ne (Scalar.extui (Scalar.cmpi .eq (BitVec.ofNat 32 (i 1).val) 0#32)) 0#32) = 1#1
/-- The second conditional's test: the second grid coordinate is 3. -/
abbrev condLast (i : grid0.Coords) : Prop := k0_cond2 i = 1#1

theorem zero2 : (![0, 0] : Fin 2 → ℕ) = fun _ => 0 := by funext a; fin_cases a <;> rfl
theorem zero3 : (![0, 0, 0] : Fin 3 → ℕ) = fun _ => 0 := by funext a; fin_cases a <;> rfl

/-- The accumulator after one more block: the sum so far plus the block product. -/
abbrev accStep (x0 : Vec F S1x64x16384 .f32) (x1 : Vec F S1x16384x64 .f32) (xs : Vec F S64x64 .f32) : Vec F S64x64 .f32 :=
  k0_pay2 x0 x1 xs
/-- The cleared accumulator. -/
abbrev accZero : Vec F S64x64 .f32 := k0_pay1 (F := F)
/-- The weights stored from an accumulator. -/
abbrev weightsOf (xs : Vec F S64x64 .f32) : Vec F S1x64x64 .f32 := k0_pay3 xs

/-- A load of a whole block reads the block. -/
theorem ld_whole_q (x0 : Vec F S1x64x16384 .f32) :
    View.ld x0 (Rect.unit (s := S1x64x16384) ![0, 0, 0] S1x64x16384.size inb_S1x64x16384_S1x64x16384_0_0_0) = x0 :=
  View.ld_unit_zero zero3 _ x0
theorem ld_whole_k (x1 : Vec F S1x16384x64 .f32) :
    View.ld x1 (Rect.unit (s := S1x16384x64) ![0, 0, 0] S1x16384x64.size inb_S1x16384x64_S1x16384x64_0_0_0) = x1 :=
  View.ld_unit_zero zero3 _ x1
theorem ld_whole_acc (xs : Vec F S64x64 .f32) :
    View.ld xs (Rect.unit (s := S64x64) ![0, 0] S64x64.size inb_S64x64_S64x64_0_0) = xs :=
  View.ld_unit_zero zero2 _ xs
theorem ld_whole_out (xo : Vec F S1x64x64 .f32) :
    View.ld xo (Rect.unit (s := S1x64x64) ![0, 0, 0] S1x64x64.size inb_S1x64x64_S1x64x64_0_0_0) = xo :=
  View.ld_unit_zero zero3 _ xo

/-- What one whole-buffer store leaves reads back as its payload. -/
theorem read_store2 {M : Memref sig .tc .vmem S64x64 .f32} (f : M.view.ty.Contents (Elt F)) (w : Vec F S64x64 .f32)
    (L : List (View.Piece (Elt F) S64x64 .f32)) :
    M.view.read (Elt F) (M.view.writes (Elt F) f (⟨Rect.unit (s := S64x64) ![0, 0] S64x64.size inb_S64x64_S64x64_0_0, w⟩ :: L)) = w := by
  rw [View.read_writes_eq_canon _ _ _ (fun y => ⟨_, List.mem_cons_self, View.mem_set_unit_zero zero2 inb_S64x64_S64x64_0_0 y⟩),
    View.canon_cons_unit_zero zero2]

theorem read_store3 {M : Memref sig .tc .vmem S1x64x64 .f32} (f : M.view.ty.Contents (Elt F)) (w : Vec F S1x64x64 .f32)
    (L : List (View.Piece (Elt F) S1x64x64 .f32)) :
    M.view.read (Elt F) (M.view.writes (Elt F) f (⟨Rect.unit (s := S1x64x64) ![0, 0, 0] S1x64x64.size inb_S1x64x64_S1x64x64_0_0_0, w⟩ :: L)) = w := by
  rw [View.read_writes_eq_canon _ _ _ (fun y => ⟨_, List.mem_cons_self, View.mem_set_unit_zero zero3 inb_S1x64x64_S1x64x64_0_0_0 y⟩),
    View.canon_cons_unit_zero zero3]

set_option maxHeartbeats 1000000 in
/-- k = 1, 2: the accumulator gains the block product; nothing else changes. -/
theorem runMid (c : Dev nD) (i : grid0.Coords) (arg2 : Memref sig .tc .vmem S1x64x16384 .f32) (harg2 : arg2.IsWhole) (arg3 : Memref sig .tc .vmem S1x16384x64 .f32) (harg3 : arg3.IsWhole) (arg4 : Memref sig .tc .vmem S1x64x64 .f32) (harg4 : arg4.IsWhole) (arg5 : Memref sig .tc .vmem S64x64 .f32) (harg5 : arg5.IsWhole)
    (hc0 : ¬condFirst i) (hc1 : ¬condLast i)
    (x0 : Vec F S1x64x16384 .f32) (x1 : Vec F S1x16384x64 .f32) (xi : Vec F S1x64x64 .f32) (xs : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (accStep x0 x1 xs)) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%fi, %hfi, Hi⟩, ⟨%fs, %hfs, HS⟩, Hk⟩
  obtain rfl := harg2.eq_unread hf0; obtain rfl := harg3.eq_unread hf1; obtain rfl := harg4.eq_unread hfi; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [Hi]
  · iexists _; isplitr; · ipureintro; exact hfi
    iexact Hi
  iexists _; isplitr
  swap; · iexact HS
  ipureintro
  rw [read_store2]
  simp only [View.readAt_eq_ld, hf0, hf1, hfs]
  rw [ld_whole_q, ld_whole_k, ld_whole_acc]

set_option maxHeartbeats 1000000 in
/-- k = 0: the accumulator, whatever it held, is cleared and gains the block product; nothing else changes. -/
theorem runFirst (c : Dev nD) (i : grid0.Coords) (arg2 : Memref sig .tc .vmem S1x64x16384 .f32) (harg2 : arg2.IsWhole) (arg3 : Memref sig .tc .vmem S1x16384x64 .f32) (harg3 : arg3.IsWhole) (arg4 : Memref sig .tc .vmem S1x64x64 .f32) (harg4 : arg4.IsWhole) (arg5 : Memref sig .tc .vmem S64x64 .f32) (harg5 : arg5.IsWhole)
    (hc0 : condFirst i) (hc1 : ¬condLast i)
    (x0 : Vec F S1x64x16384 .f32) (x1 : Vec F S1x16384x64 .f32) (xi : Vec F S1x64x64 .f32) (xs : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (accStep x0 x1 accZero)) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%fi, %hfi, Hi⟩, ⟨%fs, %hfs, HS⟩, Hk⟩
  obtain rfl := harg2.eq_unread hf0; obtain rfl := harg3.eq_unread hf1; obtain rfl := harg4.eq_unread hfi; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [Hi]
  · iexists _; isplitr; · ipureintro; exact hfi
    iexact Hi
  iexists _; isplitr
  swap; · iexact HS
  ipureintro
  rw [read_store2]
  sl_unfold_run_names
  rw [View.readCov_unit_zero _ zero2]
  simp only [View.readAt_eq_ld, hf0, hf1]
  rw [ld_whole_q, ld_whole_k]

set_option maxHeartbeats 1000000 in
/-- k = 3: the accumulator gains the block product and the output block, whatever it held, receives the weights. -/
theorem runLast (c : Dev nD) (i : grid0.Coords) (arg2 : Memref sig .tc .vmem S1x64x16384 .f32) (harg2 : arg2.IsWhole) (arg3 : Memref sig .tc .vmem S1x16384x64 .f32) (harg3 : arg3.IsWhole) (arg4 : Memref sig .tc .vmem S1x64x64 .f32) (harg4 : arg4.IsWhole) (arg5 : Memref sig .tc .vmem S64x64 .f32) (harg5 : arg5.IsWhole)
    (hc0 : ¬condFirst i) (hc1 : condLast i)
    (x0 : Vec F S1x64x16384 .f32) (x1 : Vec F S1x16384x64 .f32) (xi : Vec F S1x64x64 .f32) (xs : Vec F S64x64 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (weightsOf (accStep x0 x1 xs)) ∗ owns (c : Thread nD τ) arg5 fullShare (accStep x0 x1 xs)) -∗ K ⟨⟩))
      ⊢ wp frame (wpE (defs₀ (F := F)) Variants.none c none) E (cc0__attn_logits_kernel i arg2 harg2 arg3 harg3 arg4 harg4 arg5 harg5) K := by
  simp only [cc0__attn_logits_kernel_eq_skeleton]; unfold cc0__attn_logits_kernel_skel
  unfold owns
  iintro ⟨⟨%f0, %hf0, H0⟩, ⟨%f1, %hf1, H1⟩, ⟨%fi, %hfi, Hi⟩, ⟨%fs, %hfs, HS⟩, Hk⟩
  obtain rfl := harg2.eq_unread hf0; obtain rfl := harg3.eq_unread hf1; obtain rfl := harg4.eq_unread hfi; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  have hacc : k0_pay2
      (View.readAt (Elt F) arg2.view (Rect.unit (s := S1x64x16384) ![0, 0, 0] S1x64x16384.size inb_S1x64x16384_S1x64x16384_0_0_0).toLoadRect (harg2.unread x0))
      (View.readAt (Elt F) arg3.view (Rect.unit (s := S1x16384x64) ![0, 0, 0] S1x16384x64.size inb_S1x16384x64_S1x16384x64_0_0_0).toLoadRect (harg3.unread x1))
      (View.readAt (Elt F) arg5.view (Rect.unit (s := S64x64) ![0, 0] S64x64.size inb_S64x64_S64x64_0_0).toLoadRect (harg5.unread xs))
      = accStep x0 x1 xs := by
    simp only [View.readAt_eq_ld, hf0, hf1, hfs]
    rw [ld_whole_q, ld_whole_k, ld_whole_acc]
  isplitl [Hi]
  · iexists _; isplitr
    swap; · iexact Hi
    ipureintro
    rw [read_store3]
    sl_unfold_run_names
    rw [View.readCov_unit_zero _ zero2, hacc]
  iexists _; isplitr
  swap; · iexact HS
  ipureintro
  sl_unfold_run_names
  rw [read_store2]
  exact hacc

end Cert.KernelIdeal.Hand

end
-- ==== Proof.KI.Data.lean ====
/-
  What the two kernel regions hold, point by point, over the contents V the program's buffers have when a region is
  entered.

  Region 0 (the logits): grid (b, k) with 16 x 4 points in row-major order, point t = 4 b + k. Its inputs are the
  block (b, :, 16384 k ...) of Q and the block (b, 16384 k ..., :) of K; its 64 x 64 accumulator is cleared at k = 0
  and gains one block product per point, so after point t it holds the sum of the products of the points 4 b, ..., t
  of the same batch; at k = 3 the output block b receives the softmax weights of the accumulator's rows.
  Region 1 (the mixing): same grid; at point t the output block is the weights of batch b applied to the block
  (b, :, 16384 k ...) of Q, that block added back.
-/
import proofs.«138732_j50362786513234_2_alg».proof.Proof.Gen.KernelIdeal.Launch
import proofs.«138732_j50362786513234_2_alg».proof.Proof.Gen.KernelIdeal.Skeleton
import proofs.«138732_j50362786513234_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when a region is entered: a parameter, instantiated per region by the run
variable (V : (c : Dev nD) → (b : Ref sig .tc) → Buf (Elt F) ((c : Thread nD τ).loc b))

/-! ## Region 0 -/

/-- Window w's block at point t, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point n: the cleared accumulator (at the first point of a batch) or what the point before
    left, plus the point's block product. -/
def accAt (c : Dev nD) : (n : ℕ) → n < cfg0.N → Vec F S64x64 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩)
      (if (n + 1) % 4 = 0 then k0_pay1 (F := F) else accAt c n (Nat.lt_of_succ_lt h))

theorem accAt_zero (c : Dev nD) (h : 0 < cfg0.N) :
    accAt V c 0 h = k0_pay2 (iblk0 V c 0 ⟨0, h⟩) (iblk0 V c 1 ⟨0, h⟩) (k0_pay1 (F := F)) := rfl

theorem accAt_succ (c : Dev nD) (n : ℕ) (h : n + 1 < cfg0.N) :
    accAt V c (n + 1) h = k0_pay2 (iblk0 V c 0 ⟨n + 1, h⟩) (iblk0 V c 1 ⟨n + 1, h⟩)
      (if (n + 1) % 4 = 0 then k0_pay1 (F := F) else accAt V c n (Nat.lt_of_succ_lt h)) := rfl

/-- At the first point of a batch the accumulator is the point's product alone. -/
theorem accAt_first (c : Dev nD) (t : Fin cfg0.N) (h : t.val % 4 = 0) :
    accAt V c t.val t.isLt = k0_pay2 (iblk0 V c 0 t) (iblk0 V c 1 t) (k0_pay1 (F := F)) := by
  obtain ⟨n, hn⟩ := t
  cases n with
  | zero => rfl
  | succ n => exact (accAt_succ V c n hn).trans (by rw [if_pos h])

/-- At a later point of a batch it is what the point before left plus the point's product. -/
theorem accAt_next (c : Dev nD) (t : Fin cfg0.N) (h : t.val % 4 ≠ 0) :
    accAt V c t.val t.isLt = k0_pay2 (iblk0 V c 0 t) (iblk0 V c 1 t)
      (accAt V c (t.val - 1) (Nat.lt_of_le_of_lt (Nat.sub_le _ _) t.isLt)) := by
  obtain ⟨n, hn⟩ := t
  cases n with
  | zero => exact absurd (Nat.zero_mod _) h
  | succ n => exact (accAt_succ V c n hn).trans (by rw [if_neg h]; rfl)

/-- The accumulator's buffer, as the kernel is handed it. -/
abbrev accM : Memref sig .tc .vmem S64x64 .f32 := Memref.whole cc0_scratch0

/-- The scoped buffers region 0 neither stages nor uses: region 1's staging buffers, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scoped buffers region 0 does not stage: the accumulator at some contents, and the others. -/
theorem scopedRest0_acc (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ others0 c) := by
  rw [scopedRest0_eq]; unfold others0; simp only [accM, owns_whole]; rfl

/-- The region's invariant before position n: before the first point the scoped rest as the launch hands it (the
    accumulator at anything); afterwards the accumulator at what the point before left, beside the others. -/
def Phi0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accM fullShare (accAt V c n hn) ∗ others0 c)

theorem Phi0_zero (c : Dev nD) (n : ℕ) (h : n ≤ cfg0.N) (hz : n = 0) :
    Phi0 V c n h = Pipeline.scopedRest (Ix := Unit) (Name := ℕ) (U := UR sig nD τ) (Lvl := ℕ) (Val := Elt F) spec0 c := by
  subst hz; rfl

theorem Phi0_succ (c : Dev nD) (n : ℕ) (hn : n < cfg0.N) :
    Phi0 V c (n + 1) hn = iprop(owns (c : Thread nD τ) accM fullShare (accAt V c n hn) ∗ others0 c) := rfl

theorem Phi0_pos (c : Dev nD) (n : ℕ) (h : n ≤ cfg0.N) (hz : n ≠ 0) :
    Phi0 V c n h = iprop(owns (c : Thread nD τ) accM fullShare (accAt V c (n - 1) (by omega)) ∗ others0 c) := by
  cases n with
  | zero => exact absurd rfl hz
  | succ n => rfl

/-- Region 0's proof data on core c: the arrays as the region finds them; after the body at point t each input's
    buffer at its block and the output's at the weights of the accumulator (read only at the points k = 3, where the
    body stores them); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt V c t.val t.isLt) := by dsimp only [dat0]

/-! ## Region 1 -/

/-- Window w's block at point t, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data on core c: the arrays as the region finds them; after the body at point t each input's
    buffer at its block and the output's at the weights applied to the block of Q, the block added back; the
    invariant the scoped buffers it does not stage; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.scopedRest (Ix := Unit) (Name := ℕ) (U := UR sig nD τ) (Lvl := ℕ) (Val := Elt F) spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

end Cert.KernelIdeal.Hand

end
-- ==== Proof.KI.Obl0.lean ====
/-
  Region 0's body obligation: at every grid point, from the region's invariant and the three windows' current buffers
  at what they then hold, the logits kernel's body runs to the invariant at the next point and the buffers at what the
  proof data say it leaves.

  The point t = 4 b + k is in one of three cases by k = t mod 4. The two inputs' buffers hold their blocks at every
  point. The output's buffer is stored into only at k = 3, which is also the only kind of point that writes it back;
  elsewhere the body hands it back as found. The accumulator is among the scoped buffers the region does not stage:
  the invariant hands it over at what the point before left (at anything before the first point) and takes it back at
  this point's sum.
-/
import proofs.«138732_j50362786513234_2_alg».proof.Proof.KI.Body0
import proofs.«138732_j50362786513234_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two tests over the grid, and where the output window is idle -/

theorem hcondFirst : ∀ t : Fin cfg0.N, condFirst (grid0.coords t) ↔ t.val % 4 = 0 :=
  (by decide +kernel : ∀ t : Fin grid0.N, condFirst (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)

theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
theorem live0_2 : ∀ t : Fin cfg0.N, condLast (grid0.coords t) → cfg0.idle 2 (grid0.coords t) = false := by decide +kernel

/-! ## What the inputs' buffers hold when the body runs -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem Phi_castSucc0 (c : Dev nD) (t : Fin cfg0.N) :
    (dat0 V c).Φ t.castSucc = Phi0 V c t.val (Nat.le_of_lt t.isLt) := by
  dsimp only [dat0]; simp only [Fin.coe_castSucc]

/-- Whatever the position, the invariant holds the accumulator at some contents beside the others. -/
theorem Phi0_acc (c : Dev nD) (n : ℕ) (h : n ≤ cfg0.N) :
    Phi0 V c n h ⊢ iprop((∃ d, owns (c : Thread nD τ) accM fullShare d) ∗ others0 c) := by
  by_cases hz : n = 0
  · rw [Phi0_zero V c n h hz, scopedRest0_acc]
  · rw [Phi0_pos V c n h hz]
    iintro ⟨HS, Ho⟩
    isplitl [HS]; · iexists _; iexact HS
    iexact Ho

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [Phi_castSucc0]
  have hN : t.val < 64 := lt_of_lt_of_eq t.isLt (show cfg0.N = 64 from N_0)
  by_cases h3 : t.val % 4 = 3
  · -- the last chunk of a batch: add, then store the weights
    have hcl : condLast (grid0.coords t) := (hcondLast t).mpr h3
    have hcf : ¬condFirst (grid0.coords t) := fun h => by have := (hcondFirst t).mp h; omega
    have hz : t.val ≠ 0 := by omega
    rw [show (dat0 V c).leavesExact 2 t = owns (c : Thread nD τ) (st0_2 t) fullShare ((dat0 V c).after 2 t) from by
      unfold Dat.leavesExact; rw [live0_2 t hcl], after0_2]
    rw [accAt_next V c t (by omega), Phi0_pos V c _ _ hz]
    iintro ⟨⟨HS, Hoth⟩, Ho, ⟨%d0, H0⟩, ⟨%d1, H1⟩, ⟨%d2, H2⟩⟩
    iapply (runLast c (grid0.coords t) _ _ _ _ _ _ _ _ hcf hcl (iblk0 V c 0 t) (iblk0 V c 1 t) _ _ Set.univ _)
    isplitl [H0]; · iexact H0
    isplitl [H1]; · iexact H1
    isplitl [H2]; · iexact H2
    isplitl [HS]; · iexact HS
    iintro ⟨H0, H1, H2, HS⟩
    isplitl [HS Hoth]
    · isplitl [HS]; · iexact HS
      iexact Hoth
    isplitl [Ho]; · iexact Ho
    isplitl [H0]; · iexact H0
    isplitl [H1]; · iexact H1
    iexact H2
  · have hcl : ¬condLast (grid0.coords t) := fun h => h3 ((hcondLast t).mp h)
    rw [Dat.leavesExact_idle (dat0 V c) 2 t (idle0_2 t hcl) (noFlush0_2 t hcl)]
    by_cases h0 : t.val % 4 = 0
    · -- the first chunk of a batch: clear, then add
      have hcf : condFirst (grid0.coords t) := (hcondFirst t).mpr h0
      rw [accAt_first V c t h0]
      iintro ⟨HΦ, Ho, ⟨%d0, H0⟩, ⟨%d1, H1⟩, ⟨%d2, H2⟩⟩
      ihave HΦ' := (Phi0_acc V c t.val (Nat.le_of_lt t.isLt)) $$ HΦ
      icases HΦ' with ⟨⟨%xs, HS⟩, Hoth⟩
      iapply (runFirst c (grid0.coords t) _ _ _ _ _ _ _ _ hcf hcl (iblk0 V c 0 t) (iblk0 V c 1 t) _ xs Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexists _; iexact H2
    · -- a middle chunk: add
      have hcf : ¬condFirst (grid0.coords t) := fun h => h0 ((hcondFirst t).mp h)
      have hz : t.val ≠ 0 := by omega
      rw [accAt_next V c t h0, Phi0_pos V c _ _ hz]
      iintro ⟨⟨HS, Hoth⟩, Ho, ⟨%d0, H0⟩, ⟨%d1, H1⟩, ⟨%d2, H2⟩⟩
      iapply (runMid c (grid0.coords t) _ _ _ _ _ _ _ _ hcf hcl (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hoth]
      · isplitl [HS]; · iexact HS
        iexact Hoth
      isplitl [Ho]; · iexact Ho
      isplitl [H0]; · iexact H0
      isplitl [H1]; · iexact H1
      iexists _; iexact H2

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = Phi0 V c 0 (Nat.zero_le _) from rfl, Phi0_zero V c 0 _ rfl]

/-- After the last point the invariant gives the scoped rest back: the accumulator's contents are forgotten. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = Phi0 V c (Fin.last cfg0.N).val (Nat.le_of_lt_succ (Fin.last cfg0.N).isLt) from rfl, scopedRest0_acc]
  exact Phi0_acc V c _ _

end Cert.KernelIdeal.Hand

end
-- ==== Proof.KI.Body1.lean ====
/-
  The mixing kernel's body: it loads the 64 x 64 weights and the 64 x 16384 block of Q, and stores into the output
  block the weights applied to the block, the block added back. One case, no conditional: the inputs' buffers come
  back as they were and the output's buffer, whatever it held, at that value.
-/
import proofs.«138732_j50362786513234_2_alg».proof.Proof.Gen.KernelIdeal.Launch
import proofs.«138732_j50362786513234_2_alg».proof.Proof.Gen.KernelIdeal.Skeleton
import proofs.«138732_j50362786513234_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero3' : (![0, 0, 0] : Fin 3 → ℕ) = fun _ => 0 := by funext a; fin_cases a <;> rfl

set_option maxHeartbeats 1000000 in
theorem runMix (c : Dev nD) (i : grid1.Coords) (arg2 : Memref sig .tc .vmem S1x64x64 .f32) (harg2 : arg2.IsWhole) (arg3 : Memref sig .tc .vmem S1x64x16384 .f32) (harg3 : arg3.IsWhole) (arg4 : Memref sig .tc .vmem S1x64x16384 .f32) (harg4 : arg4.IsWhole)
    (x0 : Vec F S1x64x64 .f32) (x1 : Vec F S1x64x16384 .f32) (xo : Vec F S1x64x16384 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (k1_pay1 x0 x1)) -∗ K ⟨⟩))
      ⊢ wp frame (wpE (defs₀ (F := F)) Variants.none c none) E (cc1__output_kernel i arg2 harg2 arg3 harg3 arg4 harg4) K := by
  simp only [cc1__output_kernel_eq_skeleton]; unfold cc1__output_kernel_skel
  unfold owns
  iintro ⟨⟨%f0, %hf0, H0⟩, ⟨%f1, %hf1, H1⟩, ⟨%fo, %hfo, Ho⟩, Hk⟩
  obtain rfl := harg2.eq_unread hf0; obtain rfl := harg3.eq_unread hf1; obtain rfl := harg4.eq_unread hfo
  sl_exec
  sl_step
  iapply Hk
  isplitl [H0]
  · iexists _; isplitr; · ipureintro; exact hf0
    iexact H0
  isplitl [H1]
  · iexists _; isplitr; · ipureintro; exact hf1
    iexact H1
  iexists _; isplitr
  swap; · iexact Ho
  ipureintro
  rw [View.read_writes_eq_canon _ _ _ (fun y => ⟨_, List.mem_cons_self, View.mem_set_unit_zero zero3' inb_S1x64x16384_S1x64x16384_0_0_0 y⟩),
    View.canon_cons_unit_zero zero3']
  simp only [View.readAt_eq_ld, hf0, hf1]
  rw [show View.ld x0 (Rect.unit (s := S1x64x64) ![0, 0, 0] S1x64x64.size inb_S1x64x64_S1x64x64_0_0_0) = x0 from View.ld_unit_zero zero3' _ x0,
    show View.ld x1 (Rect.unit (s := S1x64x16384) ![0, 0, 0] S1x64x16384.size inb_S1x64x16384_S1x64x16384_0_0_0) = x1 from View.ld_unit_zero zero3' _ x1]

end Cert.KernelIdeal.Hand

end
-- ==== Proof.KI.Obl1.lean ====
/-
  Region 1's body obligation: at every grid point the two inputs' buffers hold their blocks (the weights' block is
  fetched only at the first point of a batch and stays in place for the other three, its block index unchanged), the
  body stores the output block, and the scoped buffers the region does not stage pass through untouched.
-/
import proofs.«138732_j50362786513234_2_alg».proof.Proof.KI.Body1
import proofs.«138732_j50362786513234_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (runMix c (grid1.coords t) _ _ _ _ _ _ (iblk1 V c 0 t) (iblk1 V c 1 t) _ Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the program: two reshapes of the argument on the host, the logits region, the mixing region, one
  reshape of the result on the host. The buffer contents at each boundary are a fold from the launch memory: a host
  stretch applies its operations; a region leaves its windows' arrays at what its write-backs leave and every other
  buffer as it found it. Each region is entered from the thread holding every unscoped buffer at the boundary's
  contents (beside the generator register and the core owing nothing), takes its arrays out of them, and puts them back
  at the exit contents. Every weakly fair execution terminates with every unscoped buffer at the last contents.
-/
import proofs.«138732_j50362786513234_2_alg».proof.Proof.KI.Obl0
import proofs.«138732_j50362786513234_2_alg».proof.Proof.KI.Obl1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 (c : Dev nD) : Valuation τ sig (Elt F) := fun b => m (c, b)
/-- After the two reshapes (region 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit (region 1's entry). -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape (the end). -/
abbrev W4 (c : Dev nD) : Valuation τ sig (Elt F) := StableHlo.after hostOps2 (W3 m c)

/-- The argument ends as launched: no host operation writes it and neither region has it among its arrays. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-! ## The proof data family and the thread state -/

/-- No pipeline has a prefetched table. -/
abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem noFresh0 : (hostOps0 : List (HloOp τ sig (Elt F))).Forall fun op => op.fresh = ∅ := by
  simp only [List.Forall]; repeat' constructor
theorem noFresh2 : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at W1, left at W2. -/
def reg0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := BI.emp
  Y _ := BI.emp
  Z c := iprop(Pipeline.unscopedRest (Ix := Unit) (Name := ℕ) (U := UR sig nD τ) (Lvl := ℕ) spec0 c (V1 m c) ∗ ∃ r, prngReg c r)
  hentry c := by
    rw [Pipeline.ownSems0_none]
    have hsplit := Pipeline.arrays_of_unscopedBufs (p := 0) (pcfgs (F := F)) noTables (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    iintro ⟨-, -, Hr⟩
    iapply (show _ ⊢ (pdats m 0 c).Φ 0 from hin0 (V1 m) c)
    iexact Hr
  hout c := by
    rw [Pipeline.ownSems0_none]
    iintro HΦ
    isplitr; · iempintro
    isplitr; · iempintro
    iapply (show (pdats m 0 c).Φ (Fin.last _) ⊢ _ from hout0 (V1 m) c)
    iexact HΦ
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Region 1 over the thread state: entered from every unscoped buffer at W2, left at W3. -/
def reg1 : Pipeline.RegionSeg (pcfgs (F := F)) noTables (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X _ := BI.emp
  Y _ := BI.emp
  Z c := iprop(Pipeline.unscopedRest (Ix := Unit) (Name := ℕ) (U := UR sig nD τ) (Lvl := ℕ) spec1 c (V2 m c) ∗ ∃ r, prngReg c r)
  hentry c := by
    rw [Pipeline.ownSems0_none]
    have hsplit := Pipeline.arrays_of_unscopedBufs (p := 1) (pcfgs (F := F)) noTables (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The program as segments, and the launch -/

abbrev segs : List (Pipeline.Seg (pcfgs (F := F)) noTables (pdats m) () defs₀ 𝒱₀ L lv) :=
  [ .host (hseg hostOps0 hostOps0_sub noFresh0 (W0 m)),
    .region (reg0 m),
    .region (reg1 m),
    .host (hseg hostOps2 hostOps2_sub noFresh2 (W3 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) noTables (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      show iprop(StableHlo.held (c : Thread nD τ) (Pipeline.ucRefs τ sig) (W4 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W4_main_arg0 m c)) (run_all m ρ)

end Cert.KernelIdeal.Hand

end
-- ==== Proof.Spec.lean ====
/-
  Channel attention over the extended reals, as one function of the input array.

  The input x : [16, 64, 256, 256] is read twice through row-major reshapes: as Q : [16, 64, 65536] (channel rows) and
  as K : [16, 65536, 64] (the same numbers cut into rows of 64). For each batch b the logits are the 64 x 64 products
  L[c, d] = sum over n of Q[b, c, n] * K[b, n, d]; each row of L is turned into weights by the softmax taken with the
  row's maximum subtracted; the weights mix the channel rows, and the input is added back:
  out[b, c, n] = sum over d of A[b, c, d] * Q[b, d, n] + Q[b, c, n], reshaped to the input's shape.
-/
import Idealize.ShloMosaic.PureOps.Ideal
import Idealize.ShloMosaic.Lib.ValueIdx

noncomputable section

namespace Cert.ChannelAttention

open Idealize.ShloMosaic Idealize.ShloMosaic.ValueIdx
open scoped BigOperators

abbrev SX : Shape := ⟨4, ![16, 64, 256, 256]⟩
abbrev SQ : Shape := ⟨3, ![16, 64, 65536]⟩
abbrev SK : Shape := ⟨3, ![16, 65536, 64]⟩
abbrev SA : Shape := ⟨3, ![16, 64, 64]⟩

theorem castsQ : SX.ShapeCasts SQ := by decide
theorem castsK : SX.ShapeCasts SK := by decide
theorem castsX : SQ.ShapeCasts SX := by decide

/-- One logit: row c of Q against column d of K, in batch b. -/
def logit (Q : SQ.Idx → EReal) (K : SK.Idx → EReal) (b : Fin 16) (c d : Fin 64) : EReal :=
  ∑ n : Fin 65536, Q (ix3 b c n) * K (ix3 b n d)

/-- The largest entry of a row of 64, as the fold of max from the least extended real. -/
def rowTop (L : Fin 64 → EReal) : EReal := (Finset.univ : Finset (Fin 64)).fold max ⊥ L

/-- The softmax weight of entry d of a row: exp of the entry less the row's top, over the sum of the same along the row. -/
def weight (L : Fin 64 → EReal) (d : Fin 64) : EReal :=
  Ideal.div (Ideal.exp (L d - rowTop L)) (∑ d' : Fin 64, Ideal.exp (L d' - rowTop L))

/-- The attention weights A[b, c, d]. -/
def attn (Q : SQ.Idx → EReal) (K : SK.Idx → EReal) : SA.Idx → EReal := fun i =>
  weight (fun d' => logit Q K ⟨(i 0).val, (i 0).isLt⟩ ⟨(i 1).val, (i 1).isLt⟩ d') ⟨(i 2).val, (i 2).isLt⟩

theorem attn_ix3 (Q : SQ.Idx → EReal) (K : SK.Idx → EReal) (b : Fin 16) (c d : Fin 64) :
    attn Q K (ix3 b c d) = weight (fun d' => logit Q K b c d') d := rfl

/-- The weights applied to the channel rows, the row itself added back: out[b, c, n]. -/
def mixed (A : SA.Idx → EReal) (Q : SQ.Idx → EReal) : SQ.Idx → EReal := fun i =>
  (∑ d : Fin 64, A (ix3 ⟨(i 0).val, (i 0).isLt⟩ ⟨(i 1).val, (i 1).isLt⟩ d) * Q (ix3 ⟨(i 0).val, (i 0).isLt⟩ d ⟨(i 2).val, (i 2).isLt⟩)) + Q i

theorem mixed_ix3 (A : SA.Idx → EReal) (Q : SQ.Idx → EReal) (b : Fin 16) (c : Fin 64) (n : Fin 65536) :
    mixed A Q (ix3 b c n) = (∑ d : Fin 64, A (ix3 b c d) * Q (ix3 b d n)) + Q (ix3 b c n) := rfl

/-- The whole result on the layout [16, 64, 65536], from the two reshaped readings of the input. -/
def result3 (Q : SQ.Idx → EReal) (K : SK.Idx → EReal) : SQ.Idx → EReal := mixed (attn Q K) Q

/-- The whole result as a function of the input array. -/
def result (x : SX.Idx → EReal) : SX.Idx → EReal :=
  shapeCast SX (result3 (shapeCast SQ x castsQ) (shapeCast SK x castsK)) castsX

end Cert.ChannelAttention

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.KI.Value0a.lean ====
/-
  Region 0's three stored values read at an index, over the extended reals.

  The cleared accumulator is zero everywhere. One accumulation step adds to the accumulator's entry (c, d) the sum over
  the 16384 positions n of the chunk of q[0, c, n] * k[0, n, d]. The stored weights are, at (0, c, d), the softmax
  weight of entry d of row c of the accumulator: the exponential of the entry less the row's top over the sum of the same
  along the row (joining the row's top with the least extended real changes nothing).
-/
import proofs.«138732_j50362786513234_2_alg».proof.Proof.KI.Data
import proofs.«138732_j50362786513234_2_alg».proof.Proof.Spec
import proofs.«138732_j50362786513234_2_alg».proof.Proof.LibPlainMatmul
import proofs.«138732_j50362786513234_2_alg».proof.Proof.LibColumnLayout
import Idealize.ShloMosaic.Lib.ValueLayout
import Idealize.ShloMosaic.Lib.ValueIdx
import Idealize.ShloMosaic.PureOps.Ideal.Laws

set_option maxRecDepth 16384

noncomputable section

namespace Cert.KernelIdeal.KValue0

open Cert.KernelIdeal Cert.KernelIdeal.Gen
open Idealize.ShloMosaic Idealize.ShloMosaic.ValueIdx
open scoped BigOperators

/-- The cleared accumulator holds zero at every entry. -/
theorem pay1_apply (c d : Fin 64) : (k0_pay1 (F := Ideal)) (ix2 c d) = 0 := by
  unfold k0_pay1
  rw [shapeCast_self]
  exact Ideal.ofBits_zero_f32

/-- One accumulation step at an entry: the accumulator's entry plus the chunk's product sum. -/
theorem pay2_apply (q : Vec Ideal S1x64x16384 .f32) (k : Vec Ideal S1x16384x64 .f32) (s : Vec Ideal S64x64 .f32)
    (c d : Fin 64) :
    k0_pay2 q k s (ix2 c d) = s (ix2 c d) + ∑ n : Fin 16384, q (ix3 (0 : Fin 1) c n) * k (ix3 (0 : Fin 1) n d) := by
  unfold k0_pay2
  rw [shapeCast_self, addf_apply]
  refine congrArg (s (ix2 c d) + ·) ?_
  refine (PlainMatmul.matmul_zero_apply (some .fp32) _ _ c d).trans ?_
  refine Finset.sum_congr rfl fun n _ => ?_
  rw [shapeCast_1ab_ab_apply, shapeCast_1ab_ab_apply]

/-- Joining a vector with the least extended real, entry by entry, leaves it as it is. -/
theorem max_bot_vec (v : FVec Ideal S64 .f32) :
    maximumf (broadcast S64 (Scalar.ofBits (F := Ideal) .f32 0xFF800000#32)) v = v := by
  funext i
  show max (Ideal.ofBits .f32 0xFF800000#32) (v i) = v i
  rw [ColumnLayout.ofBits_neg_inf_f32]
  exact max_bot_left _

/-- The stored weights at an entry: the softmax weight of the accumulator's row. -/
theorem pay3_apply (s : Vec Ideal S64x64 .f32) (c d : Fin 64) :
    k0_pay3 s (ix3 (0 : Fin 1) c d) = Cert.ChannelAttention.weight (fun d' => s (ix2 c d')) d := by
  unfold k0_pay3
  rw [shapeCast_ab_1ab_apply, max_bot_vec]
  exact ColumnLayout.rowSoftmax_apply s _ _ _ _ _ _ _ c d

end Cert.KernelIdeal.KValue0

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.KI.Value0.lean ====
/-
  Region 0's output array after the region: the attention weights of the two arrays the region finds.

  At the point t = 4 b + k the two input blocks are the chunk k of batch b: positions 16384 k ... 16384 k + 16383 of
  every channel row of Q and the same rows of K. The accumulator after that point holds, at (c, d), the chunks 0 ... k
  of the logit L[b, c, d]; after k = 3 all 65536 positions, the logit itself. The weights stored at k = 3 are therefore
  the softmax weights of the logits' rows, and the blocks written back at the points k = 3 tile the output array.
-/
import proofs.«138732_j50362786513234_2_alg».proof.Proof.KI.Value0a
import proofs.«138732_j50362786513234_2_alg».proof.Proof.LibBlockSum

set_option maxRecDepth 16384

noncomputable section

namespace Cert.KernelIdeal.KValue0

open Cert.KernelIdeal Cert.KernelIdeal.Gen
open Idealize.ShloMosaic Idealize.ShloMosaic.TcCoe Idealize.ShloMosaic.ValueIdx
open Idealize.SL.Sem
open Idealize.ShloMosaic.Pipeline (Dat)
open Cert.ChannelAttention (SQ SK SA logit weight attn)
open scoped BigOperators

variable (V : (c : Dev nD) → (b : Ref sig .tc) → Buf (Elt Ideal) ((c : Thread nD τ).loc b))

/-! ## The blocks of a point -/

/-- The printed index maps over the grid: point t is batch t / 4, chunk t % 4. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The block of Q at point t: row c, position n of the block is position 16384 (t % 4) + n of row c of batch t / 4. -/
theorem iblkQ_apply (c : Dev nD) (t : Fin cfg0.N) (cc : Fin 64) (n : Fin 16384) (b : Fin 16) (m : Fin 65536)
    (hb : b.val = t.val / 4) (hm : m.val = 16384 * (t.val % 4) + n.val) :
    (Hand.iblk0 V c 0 t : Vec Ideal S1x64x16384 .f32) (ix3 (0 : Fin 1) cc n)
      = (V c main_v0 : S16x64x65536.Idx → EReal) (ix3 b cc m) := by
  obtain ⟨e0, e1, e2, -⟩ := idx_facts t
  unfold Hand.iblk0
  rw [View.read_apply]
  show V c main_v0 _ = V c main_v0 _
  refine congrArg (V c main_v0) (funext fun a => Fin.ext ?_)
  match a with
  | ⟨0, _⟩ => show win0_0.index t (0 : Fin 3) * 1 + 1 * 0 = b.val; omega
  | ⟨1, _⟩ => show win0_0.index t (1 : Fin 3) * 64 + 1 * cc.val = cc.val; omega
  | ⟨2, _⟩ => show win0_0.index t (2 : Fin 3) * 16384 + 1 * n.val = m.val; omega

/-- The block of K at point t: row n, column d of the block is row 16384 (t % 4) + n, column d of batch t / 4. -/
theorem iblkK_apply (c : Dev nD) (t : Fin cfg0.N) (n : Fin 16384) (d : Fin 64) (b : Fin 16) (m : Fin 65536)
    (hb : b.val = t.val / 4) (hm : m.val = 16384 * (t.val % 4) + n.val) :
    (Hand.iblk0 V c 1 t : Vec Ideal S1x16384x64 .f32) (ix3 (0 : Fin 1) n d)
      = (V c main_v1 : S16x65536x64.Idx → EReal) (ix3 b m d) := by
  obtain ⟨-, -, -, e0, e1, e2, -⟩ := idx_facts t
  unfold Hand.iblk0
  rw [View.read_apply]
  show V c main_v1 _ = V c main_v1 _
  refine congrArg (V c main_v1) (funext fun a => Fin.ext ?_)
  match a with
  | ⟨0, _⟩ => show win0_1.index t (0 : Fin 3) * 1 + 1 * 0 = b.val; omega
  | ⟨1, _⟩ => show win0_1.index t (1 : Fin 3) * 16384 + 1 * n.val = m.val; omega
  | ⟨2, _⟩ => show win0_1.index t (2 : Fin 3) * 64 + 1 * d.val = d.val; omega

/-! ## The accumulator along a batch -/

/-- Chunk j of a logit: the products over the positions 16384 j ... 16384 j + 16383. -/
def chunk (Q : SQ.Idx → EReal) (K : SK.Idx → EReal) (b : Fin 16) (cc d : Fin 64) (j : Fin 4) : EReal :=
  ∑ n : Fin 16384, Q (ix3 b cc ⟨16384 * j.val + n.val, Cert.LibBlockSum.lt_blocks j.isLt n.isLt⟩)
    * K (ix3 b ⟨16384 * j.val + n.val, Cert.LibBlockSum.lt_blocks j.isLt n.isLt⟩ d)

/-- The four chunks are the logit. -/
theorem sum_chunks (Q : SQ.Idx → EReal) (K : SK.Idx → EReal) (b : Fin 16) (cc d : Fin 64) :
    ∑ j : Fin 4, chunk Q K b cc d j = logit Q K b cc d :=
  Cert.LibBlockSum.sum_blocks 4 16384 (fun r => Q (ix3 b cc r) * K (ix3 b r d))

/-- One accumulation step at point t of batch b, chunk j: the entry gains chunk j. -/
theorem step_apply (c : Dev nD) (t : Fin cfg0.N) (s : Vec Ideal S64x64 .f32) (b : Fin 16) (j : Fin 4)
    (hb : b.val = t.val / 4) (hj : j.val = t.val % 4) (cc d : Fin 64) :
    k0_pay2 (Hand.iblk0 V c 0 t) (Hand.iblk0 V c 1 t) s (ix2 cc d)
      = s (ix2 cc d) + chunk (V c main_v0) (V c main_v1) b cc d j := by
  refine (pay2_apply (Hand.iblk0 V c 0 t) (Hand.iblk0 V c 1 t) s cc d).trans ?_
  refine congrArg (s (ix2 cc d) + ·) (Finset.sum_congr rfl fun n _ => ?_)
  refine congrArg₂ (· * ·) (iblkQ_apply V c t cc n b _ hb ?_) (iblkK_apply V c t n d b _ hb ?_)
  · show 16384 * j.val + n.val = _; rw [hj]
  · show 16384 * j.val + n.val = _; rw [hj]

/-- After point 4 b + k the accumulator's entry (c, d) holds the chunks 0 ... k of the logit of batch b. -/
theorem acc_apply (c : Dev nD) (b : Fin 16) (cc d : Fin 64) : ∀ (k : ℕ) (hk : k < 4) (h : 4 * b.val + k < cfg0.N),
    Hand.accAt V c (4 * b.val + k) h (ix2 cc d)
      = ∑ j : Fin (k + 1), chunk (V c main_v0) (V c main_v1) b cc d ⟨j.val, Nat.lt_of_lt_of_le j.isLt hk⟩ := by
  intro k
  induction k with
  | zero =>
    intro hk h
    rw [Fin.sum_univ_castSucc, Fin.sum_univ_zero]
    have e := Hand.accAt_first V c ⟨4 * b.val + 0, h⟩ (by show (4 * b.val + 0) % 4 = 0; omega)
    refine (congrFun e (ix2 cc d)).trans ?_
    refine (step_apply V c ⟨4 * b.val + 0, h⟩ _ b ⟨0, hk⟩ (by show b.val = (4 * b.val + 0) / 4; omega)
      (by show 0 = (4 * b.val + 0) % 4; omega) cc d).trans ?_
    rw [pay1_apply]
    rfl
  | succ k ih =>
    intro hk h
    rw [Fin.sum_univ_castSucc]
    have e := Hand.accAt_next V c ⟨4 * b.val + (k + 1), h⟩ (by show (4 * b.val + (k + 1)) % 4 ≠ 0; omega)
    refine (congrFun e (ix2 cc d)).trans ?_
    refine (step_apply V c ⟨4 * b.val + (k + 1), h⟩ _ b ⟨k + 1, hk⟩ (by show b.val = (4 * b.val + (k + 1)) / 4; omega)
      (by show k + 1 = (4 * b.val + (k + 1)) % 4; omega) cc d).trans ?_
    refine congrArg₂ (· + ·) ?_ rfl
    exact ih (Nat.lt_of_succ_lt hk) _

/-- The accumulator at one position of the grid, whichever way the position is written. -/
theorem accAt_congr (c : Dev nD) {n n' : ℕ} (e : n = n') (h : n < cfg0.N) (h' : n' < cfg0.N) :
    Hand.accAt V c n h = Hand.accAt V c n' h' := by
  subst e; rfl

/-- After the last point of batch b the accumulator's entry (c, d) is the logit L[b, c, d]. -/
theorem acc_last (c : Dev nD) (t : Fin cfg0.N) (h3 : t.val % 4 = 3) (b : Fin 16) (hb : b.val = t.val / 4) (cc d : Fin 64) :
    Hand.accAt V c t.val t.isLt (ix2 cc d) = logit (V c main_v0) (V c main_v1) b cc d := by
  have hN : cfg0.N = 64 := N_0
  have ht : t.val < cfg0.N := t.isLt
  have e : t.val = 4 * b.val + 3 := by omega
  refine (congrFun (accAt_congr V c e t.isLt (by omega)) (ix2 cc d)).trans ?_
  exact (acc_apply V c b cc d 3 (by omega) (by omega)).trans (sum_chunks _ _ b cc d)

/-! ## The blocks written back, and the array -/

/-- What a point k = 3 writes back is its block of the attention weights. -/
theorem flushed_eq (c : Dev nD) (t : Fin cfg0.N) (hf : (cfg0.win 2).flush t = true) :
    (Hand.dat0 (F := Ideal) V c).flushed 2 t
      = ((cfg0.win 2).blk t).view.read (Elt Ideal) (attn (V c main_v0) (V c main_v1)) := by
  have h3 : t.val % 4 = 3 := (flush0_2 t).mp hf
  have hN : cfg0.N = 64 := N_0
  have ht : t.val < cfg0.N := t.isLt
  have hb : t.val / 4 < 16 := by omega
  obtain ⟨-, -, -, -, -, -, e0, e1, e2⟩ := idx_facts t
  show (cfg0.win 2).cut (grid0.coords t) ((Hand.dat0 V c).after 2 t) = _
  rw [Hand.after0_2]
  have hs : ∀ cc d', Hand.accAt V c t.val t.isLt (ix2 cc d')
      = logit (V c main_v0) (V c main_v1) ⟨t.val / 4, hb⟩ cc d' :=
    fun cc d' => acc_last V c t h3 ⟨t.val / 4, hb⟩ rfl cc d'
  generalize Hand.accAt V c t.val t.isLt = s at hs ⊢
  have hG : ∀ (b : Fin 16) (cc d : Fin 64), attn (V c main_v0) (V c main_v1) (ix3 b cc d)
      = weight (fun d' => logit (V c main_v0) (V c main_v1) b cc d') d := fun _ _ _ => rfl
  generalize attn (V c main_v0) (V c main_v1) = G at hG ⊢
  refine funext fun (j : S1x64x64.Idx) => ?_
  obtain ⟨u, cc, d, rfl⟩ : ∃ (u : Fin 1) (cc d : Fin 64), j = ix3 u cc d := ⟨j 0, j 1, j 2, eq_ix3 j⟩
  obtain rfl : u = 0 := Fin.ext (by omega)
  have emb : ((cfg0.win 2).blk t).view.emb (ix3 (0 : Fin 1) cc d) = ix3 (⟨t.val / 4, hb⟩ : Fin 16) cc d :=
    funext fun a => Fin.ext (by
      match a with
      | ⟨0, _⟩ => show win0_2.index t (0 : Fin 3) * 1 + 1 * 0 = t.val / 4; omega
      | ⟨1, _⟩ => show win0_2.index t (1 : Fin 3) * 64 + 1 * cc.val = cc.val; omega
      | ⟨2, _⟩ => show win0_2.index t (2 : Fin 3) * 64 + 1 * d.val = d.val; omega)
  show k0_pay3 s (ix3 (0 : Fin 1) cc d) = G (((cfg0.win 2).blk t).view.emb (ix3 (0 : Fin 1) cc d))
  rw [emb, hG]
  refine (pay3_apply s cc d).trans ?_
  exact congrArg (fun L => weight L d) (funext fun d' => hs cc d')

/-- An index of the output array is in point t's block iff each coordinate is in the block's range on its axis. -/
theorem mem_blk (t : Fin cfg0.N) (i : S16x64x64.Idx) :
    i ∈ ((cfg0.win 2).blk t).view.set ↔ ∀ a : Fin 3, win0_2.index t a * S1x64x64.size a ≤ (i a).val
      ∧ (i a).val < win0_2.index t a * S1x64x64.size a + S1x64x64.size a := by
  show i ∈ ((View.whole main_v2).slice (win0_2.rect t)).set ↔ _
  rw [View.set_slice_whole, Rect.mem_set_unit]
  exact Iff.rfl

/-- THE OUTPUT ARRAY after region 0: the attention weights of the arrays the region finds. -/
theorem final0 (c : Dev nD) :
    (Hand.dat0 (F := Ideal) V c).arrAt 2 cfg0.N = attn (V c main_v0) (V c main_v1) :=
  (Hand.dat0 (F := Ideal) V c).arrAt_eq_of_cover 2 (attn (V c main_v0) (V c main_v1)) (fun t hf => flushed_eq V c t hf) fun i => by
    have hN : cfg0.N = 64 := N_0
    have hi0 : (i 0).val < 16 := (i 0).isLt
    have hi1 : (i 1).val < 64 := (i 1).isLt
    have hi2 : (i 2).val < 64 := (i 2).isLt
    obtain ⟨t, et⟩ : ∃ t : Fin cfg0.N, t.val = 4 * (i 0).val + 3 := ⟨⟨4 * (i 0).val + 3, by omega⟩, rfl⟩
    obtain ⟨-, -, -, -, -, -, e0, e1, e2⟩ := idx_facts t
    refine ⟨t, (flush0_2 t).mpr (by omega), ?_⟩
    rw [mem_blk]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 64 ≤ (i 1).val ∧ (i 1).val < win0_2.index t (1 : Fin 3) * 64 + 64; omega
    | ⟨2, _⟩ => show win0_2.index t (2 : Fin 3) * 64 ≤ (i 2).val ∧ (i 2).val < win0_2.index t (2 : Fin 3) * 64 + 64; omega

end Cert.KernelIdeal.KValue0

end
-- ==== Proof.KI.Value1.lean ====
/-
  What region 1 (the mixing) leaves in its output array, as the specification's function of the arrays it finds.

  Region 1 runs over the grid (b, k) of 16 x 4 points in row-major order, point t = 4 b + k. At point t it reads the
  64 x 64 block b of the weights A and the block (b, :, 16384 k ...) of Q, and writes back to the block
  (b, :, 16384 k ...) of the output the matrix product of the two with the block of Q added:
  out[b, c, 16384 k + n] = sum over d of A[b, c, d] * Q[b, d, 16384 k + n] + Q[b, c, 16384 k + n].
  The 64 blocks tile the output array, so after the region the array holds that function at every index.
-/
import proofs.«138732_j50362786513234_2_alg».proof.Proof.KI.Data
import proofs.«138732_j50362786513234_2_alg».proof.Proof.Spec
import proofs.«138732_j50362786513234_2_alg».proof.Proof.LibPlainMatmul
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.KValue1

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The payload at an index -/

/-- The printed contraction record of the mixing product is the plain rows-by-columns one. -/
theorem dot_plain : dot_S64x64_S64x16384_S64x16384_1_0_0_1_n_n = DotDims.plain 64 64 16384 := rfl

/-- What the body stores at entry (c, n) of its block: row c of the weights against column n of the block of Q, the
    block's entry added. The casts drop and add a leading unit axis; the change of format is the identity on the
    extended reals. -/
theorem pay_apply (a : Vec Ideal S1x64x64 .f32) (q : Vec Ideal S1x64x16384 .f32) (c : Fin 64) (n : Fin 16384) :
    k1_pay1 a q (ix3 (0 : Fin 1) c n)
      = (∑ d : Fin 64, a (ix3 (0 : Fin 1) c d) * q (ix3 (0 : Fin 1) d n)) + q (ix3 (0 : Fin 1) c n) := by
  unfold k1_pay1
  refine (shapeCast_ab_1ab_apply _ _ (0 : Fin 1) c n).trans ?_
  rw [addf_apply, dot_plain]
  refine congrArg₂ (· + ·) ?_ (shapeCast_1ab_ab_apply q _ c n)
  refine (PlainMatmul.matmul_zero_apply none _ _ c n).trans ?_
  refine Finset.sum_congr rfl fun d _ => ?_
  rw [truncf_apply, truncf_apply]
  exact congrArg₂ (· * ·) (shapeCast_1ab_ab_apply a _ c d) (shapeCast_1ab_ab_apply q _ d n)

/-! ## The grid's points and the printed index maps -/

variable (V : (c : Dev nD) → (b : Ref sig .tc) → Buf (Elt Ideal) ((c : Thread nD τ).loc b))

theorem point_lt (t : Fin cfg1.N) : t.val < 64 := lt_of_lt_of_eq t.isLt N_1

/-- The batch of point t = 4 b + k. -/
def batchOf (t : Fin cfg1.N) : Fin 16 := ⟨t.val / 4, by have := point_lt t; omega⟩

/-- The chunk of point t = 4 b + k. -/
def chunkOf (t : Fin cfg1.N) : Fin 4 := ⟨t.val % 4, Nat.mod_lt _ (by decide)⟩

/-- The printed index maps, decided over the grid: the weights' window sits at block (b, 0, 0), the window of Q and
    the output's at block (b, 0, k). -/
theorem idx_facts : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = 0 ∧ win1_1.index t (2 : Fin 3) = t.val % 4
    ∧ win1_2.index t (0 : Fin 3) = t.val / 4 ∧ win1_2.index t (1 : Fin 3) = 0 ∧ win1_2.index t (2 : Fin 3) = t.val % 4 :=
  (by decide +kernel : ∀ t : Fin grid1.N, _)

/-! ## The blocks the body reads, as entries of the arrays -/

/-- The weights' block at point t is block b of the weights. -/
theorem iblk_weights (c : Dev nD) (t : Fin cfg1.N) (cc d : Fin 64) :
    (Hand.iblk1 V c 0 t : Vec Ideal S1x64x64 .f32) (ix3 (0 : Fin 1) cc d)
      = (V c main_v2 : Cert.ChannelAttention.SA.Idx → EReal) (ix3 (batchOf t) cc d) := by
  obtain ⟨e0, e1, e2, -⟩ := idx_facts t
  unfold Hand.iblk1
  rw [View.read_apply]
  show V c main_v2 _ = V c main_v2 _
  congr 1
  funext a
  apply Fin.ext
  match a with
  | ⟨0, _⟩ => show win1_0.index t (0 : Fin 3) * 1 + 1 * 0 = t.val / 4; omega
  | ⟨1, _⟩ => show win1_0.index t (1 : Fin 3) * 64 + 1 * cc.val = cc.val; omega
  | ⟨2, _⟩ => show win1_0.index t (2 : Fin 3) * 64 + 1 * d.val = d.val; omega

/-- The block of Q at point t is the columns 16384 k ... of batch b of Q. -/
theorem iblk_rows (c : Dev nD) (t : Fin cfg1.N) (d : Fin 64) (n : Fin 16384) :
    (Hand.iblk1 V c 1 t : Vec Ideal S1x64x16384 .f32) (ix3 (0 : Fin 1) d n)
      = (V c main_v0 : Cert.ChannelAttention.SQ.Idx → EReal)
          (ix3 (batchOf t) d ⟨16384 * (chunkOf t).val + n.val, by have := (chunkOf t).isLt; omega⟩) := by
  obtain ⟨-, -, -, e0, e1, e2, -⟩ := idx_facts t
  unfold Hand.iblk1
  rw [View.read_apply]
  show V c main_v0 _ = V c main_v0 _
  congr 1
  funext a
  apply Fin.ext
  match a with
  | ⟨0, _⟩ => show win1_1.index t (0 : Fin 3) * 1 + 1 * 0 = t.val / 4; omega
  | ⟨1, _⟩ => show win1_1.index t (1 : Fin 3) * 64 + 1 * d.val = d.val; omega
  | ⟨2, _⟩ => show win1_1.index t (2 : Fin 3) * 16384 + 1 * n.val = 16384 * (t.val % 4) + n.val; omega

/-! ## What a point writes back -/

/-- A block computed from block b of the weights and the columns 16384 k ... of batch b of Q holds, entry by entry,
    the specification's function at the entry's place in the array. -/
theorem point_value (A : Cert.ChannelAttention.SA.Idx → EReal) (Q : Cert.ChannelAttention.SQ.Idx → EReal)
    (a : Vec Ideal S1x64x64 .f32) (q : Vec Ideal S1x64x16384 .f32) (b : Fin 16) (k : Fin 4)
    (ha : ∀ (c d : Fin 64), a (ix3 (0 : Fin 1) c d) = A (ix3 b c d))
    (hq : ∀ (d : Fin 64) (n : Fin 16384),
      q (ix3 (0 : Fin 1) d n) = Q (ix3 b d ⟨16384 * k.val + n.val, by have := k.isLt; omega⟩))
    (c : Fin 64) (n : Fin 16384) :
    k1_pay1 a q (ix3 (0 : Fin 1) c n)
      = Cert.ChannelAttention.mixed A Q (ix3 b c ⟨16384 * k.val + n.val, by have := k.isLt; omega⟩) := by
  rw [pay_apply, Cert.ChannelAttention.mixed_ix3, hq c n]
  refine congrArg (· + _) (Finset.sum_congr rfl fun d _ => ?_)
  rw [ha c d, hq d n]

/-- What point t writes back is block t of the specification's function of the arrays the region finds. -/
theorem flushed_eq (c : Dev nD) (t : Fin cfg1.N) :
    (Hand.dat1 (F := Ideal) V c).flushed 2 t
      = ((cfg1.win 2).blk t).view.read (Elt Ideal) (Cert.ChannelAttention.mixed (V c main_v2) (V c main_v0)) := by
  show (cfg1.win 2).cut (grid1.coords t) ((Hand.dat1 V c).after 2 t) = _
  rw [Hand.after1_2]
  funext j
  obtain ⟨u, cc, n, rfl⟩ : ∃ (u : Fin 1) (cc : Fin 64) (n : Fin 16384), j = ix3 u cc n := ⟨j 0, j 1, j 2, eq_ix3 j⟩
  obtain rfl : u = 0 := Subsingleton.elim _ _
  obtain ⟨-, -, -, -, -, -, e0, e1, e2⟩ := idx_facts t
  have hemb : ((cfg1.win 2).blk t).view.emb (ix3 (0 : Fin 1) cc n)
      = ix3 (batchOf t) cc ⟨16384 * (chunkOf t).val + n.val, by have := (chunkOf t).isLt; omega⟩ := by
    funext a
    apply Fin.ext
    match a with
    | ⟨0, _⟩ => show win1_2.index t (0 : Fin 3) * 1 + 1 * 0 = t.val / 4; omega
    | ⟨1, _⟩ => show win1_2.index t (1 : Fin 3) * 64 + 1 * cc.val = cc.val; omega
    | ⟨2, _⟩ => show win1_2.index t (2 : Fin 3) * 16384 + 1 * n.val = 16384 * (t.val % 4) + n.val; omega
  show k1_pay1 (Hand.iblk1 V c 0 t) (Hand.iblk1 V c 1 t) (ix3 (0 : Fin 1) cc n)
    = Cert.ChannelAttention.mixed (V c main_v2) (V c main_v0) (((cfg1.win 2).blk t).view.emb (ix3 (0 : Fin 1) cc n))
  rw [hemb]
  exact point_value (V c main_v2) (V c main_v0) (Hand.iblk1 V c 0 t) (Hand.iblk1 V c 1 t) (batchOf t) (chunkOf t)
    (iblk_weights V c t) (iblk_rows V c t) cc n

/-! ## The blocks tile the array -/

/-- An index of the output array is in point t's block iff each coordinate is in the block's range on its axis. -/
theorem mem_blk (t : Fin cfg1.N) (i : S16x64x65536.Idx) :
    i ∈ ((cfg1.win 2).blk t).view.set
      ↔ ∀ a : Fin 3, win1_2.index t a * S1x64x16384.size a ≤ (i a).val
          ∧ (i a).val < win1_2.index t a * S1x64x16384.size a + S1x64x16384.size a := by
  show i ∈ ((View.whole main_v3).slice (win1_2.rect t)).set ↔ _
  rw [View.set_slice_whole, Rect.mem_set_unit]
  exact Iff.rfl

/-- The index (b, c, n) lies in the block of the point 4 b + n / 16384, and every point writes its block back. -/
theorem cover (i : S16x64x65536.Idx) :
    ∃ t : Fin cfg1.N, (cfg1.win 2).flush t = true ∧ i ∈ ((cfg1.win 2).blk t).view.set := by
  have h0 : (i 0).val < 16 := (i 0).isLt
  have h1 : (i 1).val < 64 := (i 1).isLt
  have h2 : (i 2).val < 65536 := (i 2).isLt
  have hN : cfg1.N = 64 := N_1
  obtain ⟨t, ht⟩ : ∃ t : Fin cfg1.N, t.val = 4 * (i 0).val + (i 2).val / 16384 :=
    ⟨⟨4 * (i 0).val + (i 2).val / 16384, by rw [hN]; omega⟩, rfl⟩
  obtain ⟨-, -, -, -, -, -, e0, e1, e2⟩ := idx_facts t
  refine ⟨t, flush1_2 t, ?_⟩
  rw [mem_blk]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 64 ≤ (i 1).val ∧ (i 1).val < win1_2.index t (1 : Fin 3) * 64 + 64
    omega
  | ⟨2, _⟩ =>
    show win1_2.index t (2 : Fin 3) * 16384 ≤ (i 2).val ∧ (i 2).val < win1_2.index t (2 : Fin 3) * 16384 + 16384
    omega

/-! ## The array after the region -/

/-- After region 1 its output array holds the weights applied to the channel rows, the rows added back. -/
theorem final1 (c : Dev nD) :
    (Hand.dat1 (F := Ideal) V c).arrAt 2 cfg1.N
      = Cert.ChannelAttention.mixed (V c main_v2) (V c main_v0) :=
  (Hand.dat1 V c).arrAt_eq_of_cover 2 (Cert.ChannelAttention.mixed (V c main_v2) (V c main_v0))
    (fun t _ => flushed_eq V c t) cover

end Cert.KernelIdeal.KValue1

end
-- ==== Proof.KI.ValueAll.lean ====
/-
  The program's result as the specification's function of its argument.

  The contents of the result buffer at the end are read back through the boundaries: the last reshape of region 1's
  output array; region 1's output is the weights applied to Q with Q added back, over the arrays region 1 finds; of
  those the weights are region 0's output (the softmax of the logits of Q and K, over the arrays region 0 finds) and Q
  is untouched by region 0; and Q and K are the two reshapes of the argument.
-/
import proofs.«138732_j50362786513234_2_alg».proof.Proof.KI.Run
import proofs.«138732_j50362786513234_2_alg».proof.Proof.KI.Value0
import proofs.«138732_j50362786513234_2_alg».proof.Proof.KI.Value1
import proofs.«138732_j50362786513234_2_alg».proof.Proof.Spec
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- Q as region 0 finds it: the argument reshaped to [16, 64, 65536]. -/
theorem entry_Q (c : Dev nD) :
    (V1 m c main_v0 : S16x64x65536.Idx → EReal)
      = shapeCast S16x64x65536 (m ((c : Thread nD τ).loc main_arg0)) shapeCasts_S16x64x256x256_S16x64x65536 := by
  show StableHlo.after hostOps0 (W0 m c) (Proc.devRef .tc main_v0) = _
  after_results; rfl

/-- K as region 0 finds it: the argument reshaped to [16, 65536, 64]. -/
theorem entry_K (c : Dev nD) :
    (V1 m c main_v1 : S16x65536x64.Idx → EReal)
      = shapeCast S16x65536x64 (m ((c : Thread nD τ).loc main_arg0)) shapeCasts_S16x64x256x256_S16x65536x64 := by
  show StableHlo.after hostOps0 (W0 m c) (Proc.devRef .tc main_v1) = _
  after_results; rfl

/-- Region 0 leaves Q as it found it. -/
theorem mid_Q (c : Dev nD) : V2 m c main_v0 = V1 m c main_v0 :=
  (W2_arr m c 0).trans (((dat0 (V1 m) c).arrAt_in 0 rfl _).trans (A_eq0 (V1 m) c 0))

/-- Region 0 leaves the weights in its output array. -/
theorem mid_A (c : Dev nD) :
    V2 m c main_v2 = Cert.ChannelAttention.attn (V1 m c main_v0) (V1 m c main_v1) :=
  (W2_arr m c 2).trans (KValue0.final0 (V1 m) c)

/-- Region 1 leaves the mixed rows in its output array. -/
theorem end_out (c : Dev nD) :
    W3 m c (Proc.devRef .tc main_v3) = Cert.ChannelAttention.mixed (V2 m c main_v2) (V2 m c main_v0) :=
  (W3_arr m c 2).trans (KValue1.final1 (V2 m) c)

/-- The result buffer at the end: the specification's function of the argument. -/
theorem kernel_result (c : Dev nD) :
    W4 m c (Proc.devRef .tc main_v4) = Cert.ChannelAttention.result (m ((c : Thread nD τ).loc main_arg0)) := by
  have e : W4 m c (Proc.devRef .tc main_v4)
      = shapeCast S16x64x256x256 (W3 m c (Proc.devRef .tc main_v3)) shapeCasts_S16x64x65536_S16x64x256x256 := by
    show StableHlo.after hostOps2 (W3 m c) (Proc.devRef .tc main_v4) = _
    after_results; rfl
  rw [e, end_out, mid_A, mid_Q, entry_Q, entry_K]
  rfl

end Cert.KernelIdeal.KValue

end
-- ==== Proof.RefValue.lean ====
/-
  The reference program's result, stage by stage, is the channel-attention specification.

  Reading the stages at an index: the first product gives the logits L[b, c, d] = sum over n of Q[b, c, n] * K[b, n, d]
  of the two reshaped readings Q, K of the input; the max-reduction from the least extended real, joined once more with
  that least element, is the top of row (b, c); subtracting it, exponentiating, summing along the row from zero and
  dividing gives the softmax weight of each entry; the second product mixes the rows of Q with these weights; the last
  reshape and the addition of the input put the result back on the input's layout with the input added.
  Both sides are the same expression in the input, so nothing here needs a finiteness assumption.
-/
import proofs.«138732_j50362786513234_2_alg».proof.Proof.Gen.ReferenceIdeal.Read
import proofs.«138732_j50362786513234_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read
open Cert.ChannelAttention
open scoped BigOperators

/-- The input array's type: one extended real per index of [16, 64, 256, 256]. -/
abbrev Arg : Type := (⟨S16x64x256x256, .f32⟩ : BufTy).Contents (Elt Ideal)

/-- The input read as channel rows, [16, 64, 65536]. -/
abbrev rowsOf (x : Arg) : SQ.Idx → EReal := shapeCast SQ x castsQ
/-- The input read as rows of 64, [16, 65536, 64]. -/
abbrev colsOf (x : Arg) : SK.Idx → EReal := shapeCast SK x castsK

/-- The binary32 word of minus infinity is the least extended real. -/
theorem negInf_eq_bot : Ideal.ofBits .f32 0xFF800000#32 = ⊥ := by simp [Ideal.ofBits, Ideal.ieee]

/-! ## The logits -/

/-- The first product at (b, c, d) is the logit: row c of Q against column d of K in batch b. -/
theorem v2_ix3 (x : Arg) (b : Fin 16) (c d : Fin 64) :
    val_main_v2 (F := Ideal) x (ix3 b c d) = logit (rowsOf x) (colsOf x) b c d := by
  rw [val_main_v2_apply]
  unfold logit
  refine Finset.sum_congr rfl fun n _ => ?_
  have el : lidx_main_v2 (ix3 b c d) n = ix3 b c n := by
    funext a; match a with | ⟨0, _⟩ => rfl | ⟨1, _⟩ => rfl | ⟨2, _⟩ => rfl
  have er : ridx_main_v2 (ix3 b c d) n = ix3 b n d := by
    funext a; match a with | ⟨0, _⟩ => rfl | ⟨1, _⟩ => rfl | ⟨2, _⟩ => rfl
  rw [el, er]
  rfl

/-! ## The row maxima -/

/-- Putting coordinate k back on the last axis of (b, c) gives (b, c, k). -/
theorem lift_ix2 (h : S16x64x64.Reduces [2] S16x64) (b : Fin 16) (c : Fin 64) (k : Fin (S16x64x64.size 2)) :
    h.lift (ix2 b c) k = ix3 b c (⟨k.val, k.isLt⟩ : Fin 64) := by
  funext a; apply Fin.ext
  fin_cases a <;> rfl

/-- A max-reduction from minus infinity over the last axis of a [16, 64, 64] array, at (b, c), is the top of the
    array's row (b, c). -/
theorem rowMax_ix2 (y : S16x64x64.Idx → EReal) (h' : S16x64x64.ReducesTo [2] S16x64) (hu : 0 < S_.numel)
    (b : Fin 16) (c : Fin 64) :
    Host.reduce (s := S16x64x64) (t := S16x64) (α := EReal) (FloatOps.maximumf (F := Ideal) (φ := .f32)) y
        (constant (F := Ideal) S_ .f32 0xFF800000#32) h' hu (ix2 b c)
      = rowTop fun d => y (ix3 b c d) := by
  have h : S16x64x64.Reduces [2] S16x64 := by decide
  refine (Host.reduce_eq_fold_single (s := S16x64x64) (t := S16x64) (α := EReal)
    (FloatOps.maximumf (F := Ideal) (φ := .f32)) y _ h' h hu (ix2 b c)).trans ?_
  have hf : (y ∘ h.lift (ix2 b c)) = fun k : Fin 64 => y (ix3 b c k) :=
    funext fun k => congrArg y (lift_ix2 h b c k)
  unfold rowTop
  show Finset.fold max (Ideal.ofBits .f32 0xFF800000#32) (y ∘ h.lift (ix2 b c)) (Finset.univ : Finset (Fin 64)) = _
  rw [negInf_eq_bot]
  exact congrArg (fun f => Finset.fold max ⊥ f (Finset.univ : Finset (Fin 64))) hf

/-- The reference's max-reduction at (b, c) is the top of row (b, c) of the first product. -/
theorem v3_ix2 (x : Arg) (b : Fin 16) (c : Fin 64) :
    val_main_v3 (F := Ideal) x (ix2 b c) = rowTop fun d => val_main_v2 (F := Ideal) x (ix3 b c d) := by
  unfold val_main_v3
  generalize val_main_v2 (F := Ideal) x = y
  exact rowMax_ix2 y _ _ b c

/-- Joined once more with minus infinity, the reduction is still the top of the row of logits. -/
theorem v5_ix2 (x : Arg) (b : Fin 16) (c : Fin 64) :
    val_main_v5 (F := Ideal) x (ix2 b c) = rowTop fun d => logit (rowsOf x) (colsOf x) b c d := by
  rw [val_main_v5_apply, val_main_v4_apply, val_main_cst_0_apply, v3_ix2, Ideal.maximumf_def, Ideal.ofBits_def,
    negInf_eq_bot, max_bot_left]
  exact congrArg rowTop (funext fun d => v2_ix3 x b c d)

/-! ## The weights -/

/-- The exponential stage at (b, c, d): exp of the logit less its row's top. -/
theorem v9_ix3 (x : Arg) (b : Fin 16) (c d : Fin 64) :
    val_main_v9 (F := Ideal) x (ix3 b c d)
      = Ideal.exp (logit (rowsOf x) (colsOf x) b c d - rowTop fun d' => logit (rowsOf x) (colsOf x) b c d') := by
  have e : idx_main_v6 (idx_main_v7 (ix3 b c d)) = ix2 b c := by
    funext a; match a with | ⟨0, _⟩ => rfl | ⟨1, _⟩ => rfl
  rw [val_main_v9_apply, val_main_v8_apply, val_main_v7_apply, val_main_v6_apply, e, v5_ix2, v2_ix3,
    Ideal.hostUnary_exp_def, Ideal.subf_def]

/-- The sum stage, spread back along the row: at (b, c, d) the sum over the row of the exponentials. -/
theorem v12_ix3 (x : Arg) (b : Fin 16) (c d : Fin 64) :
    val_main_v12 (F := Ideal) x (ix3 b c d)
      = ∑ d' : Fin 64,
          Ideal.exp (logit (rowsOf x) (colsOf x) b c d' - rowTop fun d'' => logit (rowsOf x) (colsOf x) b c d'') := by
  have e : idx_main_v11 (idx_main_v12 (ix3 b c d)) = ix2 b c := by
    funext a; match a with | ⟨0, _⟩ => rfl | ⟨1, _⟩ => rfl
  rw [val_main_v12_apply, val_main_v11_apply, e, val_main_v10_apply, val_main_cst_1_apply, Ideal.ofBits_def,
    Ideal.ofBits_zero_f32, zero_add]
  refine Finset.sum_congr rfl fun k _ => ?_
  have ek : idx_main_v10 (ix2 b c) k = ix3 b c k := by
    funext a; match a with | ⟨0, _⟩ => rfl | ⟨1, _⟩ => rfl | ⟨2, _⟩ => rfl
  rw [ek, v9_ix3]

/-- The quotient stage at (b, c, d) is the attention weight A[b, c, d]. -/
theorem v13_ix3 (x : Arg) (b : Fin 16) (c d : Fin 64) :
    val_main_v13 (F := Ideal) x (ix3 b c d) = attn (rowsOf x) (colsOf x) (ix3 b c d) := by
  rw [val_main_v13_apply, v9_ix3, v12_ix3, Ideal.hostDivf_def, attn_ix3]
  rfl

/-! ## The mixing product -/

/-- The second product at (b, c, n): the weights of row (b, c) applied to column n of the channel rows. -/
theorem v14_ix3 (x : Arg) (b : Fin 16) (c : Fin 64) (n : Fin 65536) :
    val_main_v14 (F := Ideal) x (ix3 b c n)
      = ∑ d : Fin 64, attn (rowsOf x) (colsOf x) (ix3 b c d) * rowsOf x (ix3 b d n) := by
  rw [val_main_v14_apply]
  refine Finset.sum_congr rfl fun d _ => ?_
  have el : lidx_main_v14 (ix3 b c n) d = ix3 b c d := by
    funext a; match a with | ⟨0, _⟩ => rfl | ⟨1, _⟩ => rfl | ⟨2, _⟩ => rfl
  have er : ridx_main_v14 (ix3 b c n) d = ix3 b d n := by
    funext a; match a with | ⟨0, _⟩ => rfl | ⟨1, _⟩ => rfl | ⟨2, _⟩ => rfl
  rw [el, er, v13_ix3]
  rfl

/-! ## The two layouts -/

/-- An array on [16, 64, 65536] read on [16, 64, 256, 256] at i is the array at the index with i's row-major position. -/
theorem castBack_apply (y : SQ.Idx → EReal) (i : SX.Idx) : shapeCast SX y castsX i = y (idx_main_v15 i) :=
  shapeCast_apply y castsX i (idx_main_v15 i) (by
    rewrite [Shape.rowMajor_val_three, Shape.rowMajor_val_four]
    have h0 : (i 0).val < 16 := (i 0).isLt
    have h1 : (i 1).val < 64 := (i 1).isLt
    have h2 : (i 2).val < 256 := (i 2).isLt
    have h3 : (i 3).val < 256 := (i 3).isLt
    show (((((i 0).val * 64 + (i 1).val) * 256 + (i 2).val) * 256 + (i 3).val) / 4194304 * 64
        + ((((i 0).val * 64 + (i 1).val) * 256 + (i 2).val) * 256 + (i 3).val) / 65536 % 64) * 65536
        + ((((i 0).val * 64 + (i 1).val) * 256 + (i 2).val) * 256 + (i 3).val) % 65536
      = (((i 0).val * 64 + (i 1).val) * 256 + (i 2).val) * 256 + (i 3).val
    omega)

/-- The channel-row reading of the input, at the index with i's row-major position, is the input at i: the two
    reshapes are inverse on positions. -/
theorem rows_at (x : Arg) (i : SX.Idx) : shapeCast SQ x castsQ (idx_main_v15 i) = x i :=
  shapeCast_apply x castsQ (idx_main_v15 i) i (by
    rewrite [Shape.rowMajor_val_four, Shape.rowMajor_val_three]
    have h0 : (i 0).val < 16 := (i 0).isLt
    have h1 : (i 1).val < 64 := (i 1).isLt
    have h2 : (i 2).val < 256 := (i 2).isLt
    have h3 : (i 3).val < 256 := (i 3).isLt
    show (((i 0).val * 64 + (i 1).val) * 256 + (i 2).val) * 256 + (i 3).val
      = (((((i 0).val * 64 + (i 1).val) * 256 + (i 2).val) * 256 + (i 3).val) / 4194304 * 64
        + ((((i 0).val * 64 + (i 1).val) * 256 + (i 2).val) * 256 + (i 3).val) / 65536 % 64) * 65536
        + ((((i 0).val * 64 + (i 1).val) * 256 + (i 2).val) * 256 + (i 3).val) % 65536
    omega)

/-! ## The whole result -/

/-- The reference's last stage is the specification's result, as functions of the input array. -/
theorem ref_is_result (x : (⟨Cert.ReferenceIdeal.S16x64x256x256, .f32⟩ : BufTy).Contents (Elt Ideal)) :
    Cert.ReferenceIdeal.Read.val_main_v16 (F := Ideal) x = Cert.ChannelAttention.result x := by
  funext i
  obtain ⟨b, c, n, hj⟩ : ∃ (b : Fin 16) (c : Fin 64) (n : Fin 65536), idx_main_v15 i = ix3 b c n :=
    ⟨_, _, _, eq_ix3 _⟩
  rw [val_main_v16_apply, val_main_v15_apply, Ideal.addf_def]
  unfold result
  rw [castBack_apply, hj, v14_ix3]
  unfold result3
  rw [mixed_ix3, ← hj, rows_at]

end Cert.ReferenceIdeal.RefValue

end
-- ==== Proof.lean ====
/-
  The certificate's five claims.

  The kernel computes channel attention in two regions — the logits Q K of each batch accumulated over four chunks of
  the contracted axis and turned into softmax weights, then the weights applied to the channel rows with the rows added
  back — between reshapes of the argument and of the result; the reference computes the same with two whole matrix
  products. Over the extended reals both results are one function of the argument (the specification): a sum taken
  chunk by chunk is the whole sum, and every other operation is spelt alike. Each program's frame is its run with the
  result dropped; the idealization rewrote nothing, so there is nothing to preserve.
-/
import proofs.«138732_j50362786513234_2_alg».proof.Defs
import proofs.«138732_j50362786513234_2_alg».proof.Proof.Gen.Kernel
import proofs.«138732_j50362786513234_2_alg».proof.Proof.Gen.KernelIdeal
import proofs.«138732_j50362786513234_2_alg».proof.Proof.Gen.ReferenceIdeal
import proofs.«138732_j50362786513234_2_alg».proof.Proof.Gen.Pre_finite_inputs
import proofs.«138732_j50362786513234_2_alg».proof.Proof.K.Run
import proofs.«138732_j50362786513234_2_alg».proof.Proof.KI.Run
import proofs.«138732_j50362786513234_2_alg».proof.Proof.KI.ValueAll
import proofs.«138732_j50362786513234_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the specification's function of arguments that agree. -/
theorem algebraic : Cert.algebraic_KernelIdeal_ReferenceIdeal := by
  intro m ρ m' ρ' _ hagree
  refine ⟨fun c => Cert.ChannelAttention.result (m ((c.tc : Thread Cert.KernelIdeal.nD Cert.KernelIdeal.τ).loc Cert.KernelIdeal.main_arg0)), ?_, ?_⟩
  · exact (θ_run Cert.KernelIdeal.defs _ _).mono (fun _ h c =>
      ⟨(h c _ (Cert.KernelIdeal.Hand.mem_uc Cert.KernelIdeal.main_v4 (by decide))).trans (Cert.KernelIdeal.KValue.kernel_result m c),
        (h c _ (Cert.KernelIdeal.Hand.mem_uc Cert.KernelIdeal.main_arg0 (by decide))).trans (Cert.KernelIdeal.Hand.W4_main_arg0 m c)⟩)
      (Cert.KernelIdeal.Hand.run_all m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, Cert.ReferenceIdeal.RefValue.ref_is_result, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
